-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x64 .f32) (main_arg1 : IVec S1600000 32) (main_arg2 : IVec S1600000 32) (main_arg3 : FVec F S64x64 .f32) (main_arg4 : FVec F S64 .f32) (main_arg5 : FVec F S64x16 .f32) (main_arg6 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg5
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg6 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S100000x16 : Shape := ⟨2, ![100000, 16]⟩
abbrev S5000x64 : Shape := ⟨2, ![5000, 64]⟩
abbrev S5000x1 : Shape := ⟨2, ![5000, 1]⟩
abbrev S5000x16 : Shape := ⟨2, ![5000, 16]⟩
abbrev S1600000x16 : Shape := ⟨2, ![1600000, 16]⟩
abbrev S1x16 : Shape := ⟨2, ![1, 16]⟩

abbrev nBuf : Space → Nat
  | .hbm => 77
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x1, .f32⟩
  | .hbm, ⟨58, _⟩ => ⟨S100000x1, .f32⟩
  | .hbm, ⟨59, _⟩ => ⟨S1x64, .f32⟩
  | .hbm, ⟨60, _⟩ => ⟨S100000x16, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x16, .f32⟩
  | .hbm, ⟨70, _⟩ => ⟨S_, .f32⟩
  | .hbm, ⟨71, _⟩ => ⟨S100000x16, .f32⟩
  | .hbm, ⟨72, _⟩ => ⟨S1600000x1, .i32⟩
  | .hbm, ⟨73, _⟩ => ⟨S100000x16, .f32⟩
  | .hbm, ⟨74, _⟩ => ⟨S100000x1, .f32⟩
  | .hbm, ⟨75, _⟩ => ⟨S1x16, .f32⟩
  | .hbm, ⟨76, _⟩ => ⟨S100000x16, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S1x64, .f32⟩
  | .local _ .vmem, ⟨8, _⟩ => ⟨S64x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S5000x1, .f32⟩
  | .local _ .vmem, ⟨14, _⟩ => ⟨S5000x1, .f32⟩
  | .local _ .vmem, ⟨15, _⟩ => ⟨S1x16, .f32⟩
  | .local _ .vmem, ⟨16, _⟩ => ⟨S5000x16, .f32⟩
  | .local _ .vmem, ⟨17, _⟩ => ⟨S5000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_6 : Ref sig .tc := ⟨.hbm, 30, rfl⟩
abbrev main_v14 : Ref sig .tc := ⟨.hbm, 31, rfl⟩
abbrev main_v15 : Ref sig .tc := ⟨.hbm, 32, rfl⟩
abbrev main_cst_7 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_8 : Ref sig .tc := ⟨.hbm, 37, rfl⟩
abbrev main_call1_v0 : Ref sig .tc := ⟨.hbm, 38, rfl⟩
abbrev main_call1_v1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c : Ref sig .tc := ⟨.hbm, 44, rfl⟩
abbrev main_v23 : Ref sig .tc := ⟨.hbm, 45, rfl⟩
abbrev main_v24 : Ref sig .tc := ⟨.hbm, 46, rfl⟩
abbrev main_c_9 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_10 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_11 : Ref sig .tc := ⟨.hbm, 61, rfl⟩
abbrev main_v37 : Ref sig .tc := ⟨.hbm, 62, rfl⟩
abbrev main_v38 : Ref sig .tc := ⟨.hbm, 63, rfl⟩
abbrev main_c_12 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_13 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x16_S5000x16_1_0_0_1_n_n_wf : DotDims.WF S5000x64 S64x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x16.size a ≤ S64x16.size a
  hwx0_5 : ∀ i : grid0.Coords, EltTy.bits .f32 = 32 ∨ (Rect.block (s := S64x16) S64x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x16.size a ≤ S100000x16.size a
  hwx0_6 : ∀ i : grid0.Coords, EltTy.bits .f32 = 32 ∨ (Rect.block (s := S100000x16) S5000x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S100000x16.size a
  hwx1_3 : ∀ i : grid1.Coords, EltTy.bits .f32 = 32 ∨ (Rect.block (s := S100000x16) S5000x16.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_v32) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S5000x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v46) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S100000x16 : Shape := ⟨2, ![100000, 16]⟩
abbrev S1x16 : Shape := ⟨2, ![1, 16]⟩

abbrev nBuf : Space → Nat
  | .hbm => 124
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S1600000, .f32⟩
  | .hbm, ⟨69, _⟩ => ⟨S_, .f32⟩
  | .hbm, ⟨70, _⟩ => ⟨S100000, .f32⟩
  | .hbm, ⟨71, _⟩ => ⟨S1600000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .i1⟩
  | .hbm, ⟨76, _⟩ => ⟨S_, .f32⟩
  | .hbm, ⟨77, _⟩ => ⟨S100000, .f32⟩
  | .hbm, ⟨78, _⟩ => ⟨S100000, .f32⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .f32⟩
  | .hbm, ⟨85, _⟩ => ⟨S1600000, .f32⟩
  | .hbm, ⟨86, _⟩ => ⟨S_, .f32⟩
  | .hbm, ⟨87, _⟩ => ⟨S100000, .f32⟩
  | .hbm, ⟨88, _⟩ => ⟨S1600000x1, .i32⟩
  | .hbm, ⟨89, _⟩ => ⟨S100000, .f32⟩
  | .hbm, ⟨90, _⟩ => ⟨S_, .f32⟩
  | .hbm, ⟨91, _⟩ => ⟨S100000, .f32⟩
  | .hbm, ⟨92, _⟩ => ⟨S100000, .i1⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000, .f32⟩
  | .hbm, ⟨97, _⟩ => ⟨S_, .f32⟩
  | .hbm, ⟨98, _⟩ => ⟨S_, .f32⟩
  | .hbm, ⟨99, _⟩ => ⟨S100000, .f32⟩
  | .hbm, ⟨100, _⟩ => ⟨S100000, .f32⟩
  | .hbm, ⟨101, _⟩ => ⟨S100000x1, .f32⟩
  | .hbm, ⟨102, _⟩ => ⟨S100000x64, .f32⟩
  | .hbm, ⟨103, _⟩ => ⟨S100000x64, .f32⟩
  | .hbm, ⟨104, _⟩ => ⟨S_, .i32⟩
  | .hbm, ⟨105, _⟩ => ⟨S1600000, .i32⟩
  | .hbm, ⟨106, _⟩ => ⟨S1600000, .i1⟩
  | .hbm, ⟨107, _⟩ => ⟨S_, .i32⟩
  | .hbm, ⟨108, _⟩ => ⟨S1600000, .i32⟩
  | .hbm, ⟨109, _⟩ => ⟨S1600000, .i32⟩
  | .hbm, ⟨110, _⟩ => ⟨S1600000, .i32⟩
  | .hbm, ⟨111, _⟩ => ⟨S1600000x1, .i32⟩
  | .hbm, ⟨112, _⟩ => ⟨S1600000x64, .f32⟩
  | .hbm, ⟨113, _⟩ => ⟨S_, .f32⟩
  | .hbm, ⟨114, _⟩ => ⟨S100000x64, .f32⟩
  | .hbm, ⟨115, _⟩ => ⟨S1600000x1, .i32⟩
  | .hbm, ⟨116, _⟩ => ⟨S100000x64, .f32⟩
  | .hbm, ⟨117, _⟩ => ⟨S100000x1, .f32⟩
  | .hbm, ⟨118, _⟩ => ⟨S100000x64, .f32⟩
  | .hbm, ⟨119, _⟩ => ⟨S100000x64, .f32⟩
  | .hbm, ⟨120, _⟩ => ⟨S100000x16, .f32⟩
  | .hbm, ⟨121, _⟩ => ⟨S1x16, .f32⟩
  | .hbm, ⟨122, _⟩ => ⟨S100000x16, .f32⟩
  | .hbm, ⟨123, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_6 : Ref sig .tc := ⟨.hbm, 30, rfl⟩
abbrev main_v14 : Ref sig .tc := ⟨.hbm, 31, rfl⟩
abbrev main_v15 : Ref sig .tc := ⟨.hbm, 32, rfl⟩
abbrev main_cst_7 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_8 : Ref sig .tc := ⟨.hbm, 37, rfl⟩
abbrev main_call1_v0 : Ref sig .tc := ⟨.hbm, 38, rfl⟩
abbrev main_call1_v1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c : Ref sig .tc := ⟨.hbm, 44, rfl⟩
abbrev main_v23 : Ref sig .tc := ⟨.hbm, 45, rfl⟩
abbrev main_v24 : Ref sig .tc := ⟨.hbm, 46, rfl⟩
abbrev main_c_9 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_10 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call2_cst : Ref sig .tc := ⟨.hbm, 64, rfl⟩
abbrev main_call2_v0 : Ref sig .tc := ⟨.hbm, 65, rfl⟩
abbrev main_v40 : Ref sig .tc := ⟨.hbm, 66, rfl⟩
abbrev main_cst_11 : Ref sig .tc := ⟨.hbm, 67, rfl⟩
abbrev main_v41 : Ref sig .tc := ⟨.hbm, 68, rfl⟩
abbrev main_cst_12 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_13 : Ref sig .tc := ⟨.hbm, 73, rfl⟩
abbrev main_v45 : Ref sig .tc := ⟨.hbm, 74, rfl⟩
abbrev main_v46 : Ref sig .tc := ⟨.hbm, 75, rfl⟩
abbrev main_cst_14 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_15 : Ref sig .tc := ⟨.hbm, 80, rfl⟩
abbrev main_call3_v0 : Ref sig .tc := ⟨.hbm, 81, rfl⟩
abbrev main_call3_v1 : Ref sig .tc := ⟨.hbm, 82, rfl⟩
abbrev main_v50 : Ref sig .tc := ⟨.hbm, 83, rfl⟩
abbrev main_cst_16 : Ref sig .tc := ⟨.hbm, 84, rfl⟩
abbrev main_v51 : Ref sig .tc := ⟨.hbm, 85, rfl⟩
abbrev main_cst_17 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_18 : Ref sig .tc := ⟨.hbm, 90, rfl⟩
abbrev main_v55 : Ref sig .tc := ⟨.hbm, 91, rfl⟩
abbrev main_v56 : Ref sig .tc := ⟨.hbm, 92, rfl⟩
abbrev main_cst_19 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_20 : Ref sig .tc := ⟨.hbm, 97, rfl⟩
abbrev main_call4_v0 : Ref sig .tc := ⟨.hbm, 98, rfl⟩
abbrev main_call4_v1 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_c_21 : Ref sig .tc := ⟨.hbm, 104, rfl⟩
abbrev main_v64 : Ref sig .tc := ⟨.hbm, 105, rfl⟩
abbrev main_v65 : Ref sig .tc := ⟨.hbm, 106, rfl⟩
abbrev main_c_22 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_23 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.LibRowOps.lean ====
/-
  Rows of a matrix taken and accumulated by an index vector, read at an index.

  What `x[idx]` of a matrix `x : [N, C]` at an integer vector `idx : [E]` lowers to is a gather whose start indices
  are `idx` as a column `[E, 1]`: result row `e` is row `idx[e]` of `x`, the start read as a signed integer and clamped
  into `[0, N - 1]`.  What `segment_sum(u, idx, N)` of `u : [E, C]` lowers to is an accumulating scatter with the same
  column of indices: row `v` of the result is row `v` of the operand plus the sum of the rows `u[e]` over the `e` with
  `idx[e] = v`, the index read signed and NOT clamped (a row whose index is outside `[0, N)` lands nowhere).
-/
import Idealize.ShloMosaic.PureOps.Ideal
import Idealize.ShloMosaic.Lib.ValueIdx

noncomputable section

open scoped BigOperators

namespace Idealize.ShloMosaic.RowOps

open Idealize.ShloMosaic Idealize.ShloMosaic.ValueIdx

/-! ## The row gather -/

section Gather
variable {α : Type}

/-- The dimension numbers of a row gather: operand `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A start index read signed and clamped into `[0, N - 1]`: the row a gather reads. -/
def clampRow (N : Nat) (hN : 0 < N) {w : Nat} (z : BitVec w) : Fin N := ⟨min z.toInt.toNat (N - 1), by omega⟩

/-- THE ROW GATHER READ AT `(e, c)`: the operand at row `idx[e]` (signed, clamped), column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (clampRow N hN (idx (ix2 e (0 : Fin 1)))) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    unfold GatherDims.start
    rw [dif_neg (show (1 : Fin 2) ∉ ([0] : List (Fin 2)) by decide)]
    unfold GatherDims.offCoord
    have hk : (1 : Fin 2) ∈ (rowGatherDims N E C wf).sKept :=
      show (1 : Fin 2) ∈ (List.finRange 2).filter (· ∉ (([0] : List (Fin 2)) ++ [])) from by decide
    rw [dif_pos hk]
    simp only [Nat.zero_add]
    rfl

end Gather

/-! ## The accumulating row scatter -/

section Scatter

/-- The dimension numbers of a row scatter: operand `[N, C]`, scatter indices `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w)

/-- On the row axis an update's window starts at its index, read signed … -/
theorem rowScatter_start0 (j : (⟨2, ![E, C]⟩ : Shape).Idx) :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl
/-- … and has no extent (the row axis is inserted); -/
theorem rowScatter_window0 (j : (⟨2, ![E, C]⟩ : Shape).Idx) : (rowScatterDims N E C wf).window j 0 = 0 := by
  unfold ScatterDims.window
  have hk : (0 : Fin 2) ∉ (rowScatterDims N E C wf).sKept :=
    show (0 : Fin 2) ∉ (List.finRange 2).filter (· ∉ ([0] : List (Fin 2))) from by decide
  rw [dif_neg hk]
/-- on the column axis it starts at `0` … -/
theorem rowScatter_start1 (j : (⟨2, ![E, C]⟩ : Shape).Idx) : (rowScatterDims N E C wf).start j idx 1 = 0 := by
  unfold ScatterDims.start
  rw [dif_neg (show (1 : Fin 2) ∉ ([0] : List (Fin 2)) by decide)]
/-- … and the window coordinate is the update's column. -/
theorem rowScatter_window1 (j : (⟨2, ![E, C]⟩ : Shape).Idx) : (rowScatterDims N E C wf).window j 1 = (j 1).val := by
  unfold ScatterDims.window
  have hk : (1 : Fin 2) ∈ (rowScatterDims N E C wf).sKept :=
    show (1 : Fin 2) ∈ (List.finRange 2).filter (· ∉ ([0] : List (Fin 2))) from by decide
  rw [dif_pos hk]
  rfl

/-- Update `(e, b)` lands at `(v, c)` exactly when `idx[e] = v` as integers and `b = c`. -/
theorem rowScatter_lands_iff (e : Fin E) (b : Fin C) (v : Fin N) (c : Fin C) :
    (rowScatterDims N E C wf).resultIdx? (ix2 e b) idx = some (ix2 v c)
      ↔ (idx (ix2 e (0 : Fin 1))).toInt = (v.val : ℤ) ∧ b = c := by
  unfold ScatterDims.resultIdx?
  have s0 := rowScatter_start0 wf idx (ix2 e b)
  have w0 := rowScatter_window0 wf (ix2 e b)
  have s1 := rowScatter_start1 wf idx (ix2 e b)
  have w1 := rowScatter_window1 wf (ix2 e b)
  have e0 : (ix2 e b : (⟨2, ![E, C]⟩ : Shape).Idx) 0 = e := rfl
  have e1 : ((ix2 e b : (⟨2, ![E, C]⟩ : Shape).Idx) 1).val = b.val := rfl
  rw [e0] at s0
  rw [e1] at w1
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only at h0 h1
      have hv : ((ix2 v c : (⟨2, ![N, C]⟩ : Shape).Idx) 0).val = v.val := rfl
      have hc : ((ix2 v c : (⟨2, ![N, C]⟩ : Shape).Idx) 1).val = c.val := rfl
      rw [hv] at h0; rw [hc] at h1
      have hh0 := (h 0).1
      rw [s0, w0] at h0 hh0
      rw [s1, w1] at h1
      refine ⟨by omega, Fin.ext (by omega)⟩
    · rintro ⟨hz, rfl⟩
      funext a
      refine Fin.ext ?_
      match a with
      | ⟨0, _⟩ =>
        show ((rowScatterDims N E C wf).start (ix2 e b) idx 0 + ((rowScatterDims N E C wf).window (ix2 e b) 0 : ℕ)).toNat = v.val
        rw [s0, w0, hz]; simp
      | ⟨1, _⟩ =>
        show ((rowScatterDims N E C wf).start (ix2 e b) idx 1 + ((rowScatterDims N E C wf).window (ix2 e b) 1 : ℕ)).toNat = b.val
        rw [s1, w1]; simp
  · rename_i h
    constructor
    · intro hf; exact absurd hf (by simp)
    · rintro ⟨hz, rfl⟩
      exfalso; apply h
      intro a
      match a with
      | ⟨0, _⟩ =>
        show 0 ≤ (rowScatterDims N E C wf).start (ix2 e b) idx 0 + ((rowScatterDims N E C wf).window (ix2 e b) 0 : ℕ)
          ∧ (rowScatterDims N E C wf).start (ix2 e b) idx 0 + ((rowScatterDims N E C wf).window (ix2 e b) 0 : ℕ) < (N : ℤ)
        rw [s0, w0, hz]; have := v.isLt; constructor <;> omega
      | ⟨1, _⟩ =>
        show 0 ≤ (rowScatterDims N E C wf).start (ix2 e b) idx 1 + ((rowScatterDims N E C wf).window (ix2 e b) 1 : ℕ)
          ∧ (rowScatterDims N E C wf).start (ix2 e b) idx 1 + ((rowScatterDims N E C wf).window (ix2 e b) 1 : ℕ) < (C : ℤ)
        rw [s1, w1]; have := b.isLt; constructor <;> omega

/-- THE ACCUMULATING ROW SCATTER READ AT `(v, c)`: the operand there plus the sum, over the update rows `e` whose
    index is `v`, of the update at `(e, c)`. -/
theorem rowScatterAdd_apply (x : (⟨2, ![N, C]⟩ : Shape).Idx → EReal) (upd : (⟨2, ![E, C]⟩ : Shape).Idx → EReal)
    (v : Fin N) (c : Fin C) :
    Ideal.hostScatterAdd (rowScatterDims N E C wf) x idx upd (ix2 v c)
      = x (ix2 v c) + ∑ e ∈ Finset.univ.filter (fun e : Fin E => (idx (ix2 e (0 : Fin 1))).toInt = (v.val : ℤ)),
          upd (ix2 e c) := by
  unfold Ideal.hostScatterAdd
  congr 1
  rw [Finset.sum_filter, sum_idx2, Finset.sum_filter]
  refine Finset.sum_congr rfl fun e _ => ?_
  simp only [rowScatter_lands_iff wf idx]
  by_cases hz : (idx (ix2 e (0 : Fin 1))).toInt = (v.val : ℤ)
  · simp only [hz, true_and, if_true]
    rw [Finset.sum_ite_eq' Finset.univ c]
    simp
  · simp [hz]

end Scatter

end Idealize.ShloMosaic.RowOps

end
-- ==== Proof.Spec.lean ====
/-
  The two-layer graph convolution as whole-array functions of the arguments, at the ideal values.

  With `src`, `dst` the edge lists: `deg idx v` counts the edges whose index is `v` (a float sum of ones from zero),
  `norm idx v` is `deg^(-1/2)` where the degree is positive and `1` elsewhere; `agg y` gathers the rows `y[src e]` (an
  index below zero wrapped once by the number of nodes, then clamped) and adds each into row `dst e` of a zero array;
  `hidden` is the first layer followed by the rectifier and the second layer's source normalisation,
      max (((agg (x · norm src)) · norm dst) W₁ + b₁) 0 · norm src,
  and `refOut` the second layer of the reference, `((agg hidden) · norm dst) W₂ + b₂`.
  These are, operation for operation, the subterms of the reference program's composed result.
-/
import proofs.«130890_j80968723464705_2_alg».proof.Proof.Gen.ReferenceIdeal
import proofs.«130890_j80968723464705_2_alg».proof.Proof.LibRowOps
import Idealize.ShloMosaic.PureOps.Ideal

noncomputable section

namespace Cert.Spec

open Cert.ReferenceIdeal Cert.ReferenceIdeal.Gen Idealize.ShloMosaic Idealize.ShloMosaic.ValueIdx

open scoped BigOperators

/-- The number of edges whose index is each node, as a float sum of ones from zero. -/
def deg (idx : IVec S1600000 32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 idx)
    (broadcastInDim S1600000 ![] bcast_S_S1600000 (constant (F := Ideal) S_ .f32 0x3F800000#32))

/-- The degree norm: `deg^(-1/2)` where the degree is positive, `1` elsewhere. -/
def norm (idx : IVec S1600000 32) : FVec Ideal S100000 .f32 :=
  select (cmpf (F := Ideal) .ogt (deg idx) (broadcastInDim S100000 ![] bcast_S_S100000 (constant (F := Ideal) S_ .f32 0x00000000#32)))
    (Host.rsqrt (maximumf (deg idx) (broadcastInDim S100000 ![] bcast_S_S100000 (constant (F := Ideal) S_ .f32 0x3F800000#32))))
    (broadcastInDim S100000 ![] bcast_S_S100000 (id (constant (F := Ideal) S_ .f32 0x3F800000#32)))

/-- A per-node vector spread over the 64 feature columns. -/
def col (n : FVec Ideal S100000 .f32) : FVec Ideal S100000x64 .f32 :=
  broadcastInDim S100000x64 ![0, 1] bcast_S100000x1_S100000x64_0_1 (broadcastInDim S100000x1 ![0] bcast_S100000_S100000x1_0 n)

/-- An edge index below zero wrapped once by the number of nodes. -/
def wrap (idx : IVec S1600000 32) : IVec S1600000 32 :=
  select (cmpi .slt idx (broadcastInDim S1600000 ![] bcast_S_S1600000 (constantI S_ 32 0#32)))
    (addi idx (broadcastInDim S1600000 ![] bcast_S_S1600000 (constantI S_ 32 100000#32))) idx

/-- The messages `y[src e]` summed into the rows `dst e` of a zero array. -/
def agg (y : FVec Ideal S100000x64 .f32) (src dst : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 y
      (broadcastInDim S1600000x1 ![0] bcast_S1600000_S1600000x1_0 (wrap src)))

/-- The first layer's aggregate, scaled by the destination norm: what both programs multiply by `W₁`. -/
def layer1 (x : FVec Ideal S100000x64 .f32) (src dst : IVec S1600000 32) : FVec Ideal S100000x64 .f32 :=
  mulf (agg (mulf x (col (norm src))) src dst) (col (norm dst))

/-- The hidden state the second layer aggregates: first layer, rectifier, source normalisation. -/
def hidden (x : FVec Ideal S100000x64 .f32) (src dst : IVec S1600000 32) (w1 : FVec Ideal S64x64 .f32) (b1 : FVec Ideal S64 .f32) :
    FVec Ideal S100000x64 .f32 :=
  mulf (maximumf (addf (Host.dotGeneral dot_S100000x64_S64x64_S100000x64_1_0_0_1_n_n none (layer1 x src dst) w1)
      (broadcastInDim S100000x64 ![0, 1] bcast_S1x64_S100000x64_0_1 (broadcastInDim S1x64 ![1] bcast_S64_S1x64_1 b1)))
    (broadcastInDim S100000x64 ![] bcast_S_S100000x64 (constant (F := Ideal) S_ .f32 0x00000000#32)))
    (col (norm src))

/-- The reference's result: the second layer over the hidden state. -/
def refOut (x : FVec Ideal S100000x64 .f32) (src dst : IVec S1600000 32) (w1 : FVec Ideal S64x64 .f32) (b1 : FVec Ideal S64 .f32)
    (w2 : FVec Ideal S64x16 .f32) (b2 : FVec Ideal S16 .f32) : FVec Ideal S100000x16 .f32 :=
  addf (Host.dotGeneral dot_S100000x64_S64x16_S100000x16_1_0_0_1_n_n none
      (mulf (agg (hidden x src dst w1 b1) src dst) (col (norm dst))) w2)
    (broadcastInDim S100000x16 ![0, 1] bcast_S1x16_S100000x16_0_1 (broadcastInDim S1x16 ![1] bcast_S16_S1x16_1 b2))

/-! ## The same, entry by entry -/

/-- The edges whose index, read as a signed integer, is node `v`: the rows a scatter adds into row `v`. -/
def rowsTo (idx : IVec S1600000 32) (v : Fin 100000) : Finset (Fin 1600000) :=
  Finset.univ.filter fun e : Fin 1600000 => (idx (ix1 e)).toInt = (v.val : ℤ)

/-- The node whose row edge `e` gathers: its index wrapped once if negative, read signed, clamped into the array. -/
def rowOf (idx : IVec S1600000 32) (e : Fin 1600000) : Fin 100000 :=
  RowOps.clampRow 100000 (by decide) (wrap idx (ix1 e))

/-- Entry `(v, k)` of the hidden state. -/
def hiddenPt (x : FVec Ideal S100000x64 .f32) (src dst : IVec S1600000 32) (w1 : FVec Ideal S64x64 .f32) (b1 : FVec Ideal S64 .f32)
    (v : Fin 100000) (k : Fin 64) : EReal :=
  max ((∑ j : Fin 64, layer1 x src dst (ix2 v j) * w1 (ix2 j k)) + b1 (ix1 k)) 0 * norm src (ix1 v)

end Cert.Spec

end
-- ==== Proof.RefValue.lean ====
/-
  The reference's run, its result named by the specification: every weakly fair execution of the reference program
  terminates with its result buffer at `Spec.refOut` of the argument arrays, the arguments unchanged.
-/
import proofs.«130890_j80968723464705_2_alg».proof.Proof.RefRunPatched
import proofs.«130890_j80968723464705_2_alg».proof.Proof.Spec

noncomputable section

namespace Cert.RefValue

open Cert.ReferenceIdeal Cert.ReferenceIdeal.Gen Idealize.ShloMosaic Idealize.ShloMosaic.TcCoe Idealize.SL.Sem

set_option maxRecDepth 8192 in
/-- The composed term of the reference's operations is the specification of the argument arrays. -/
theorem res_eq (m : (ℓ : Loc nD τ sig) → Buf (Elt Ideal) ℓ) (c : Dev nD) :
    Cert.ReferenceIdeal.ValueP.res_main_v80 (F := Ideal) m c
      = Cert.Spec.refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  unfold Cert.ReferenceIdeal.ValueP.res_main_v80 Cert.Spec.refOut Cert.Spec.hidden Cert.Spec.layer1 Cert.Spec.agg Cert.Spec.col
    Cert.Spec.norm Cert.Spec.deg Cert.Spec.wrap
  rfl

end Cert.RefValue

end
-- ==== Proof.KRun.lean ====
/-
  The idealized kernel's run with its result named.

  @main is five stretches of host operations, the first pallas_call, one more stretch, the second pallas_call.
  Every weakly fair execution terminates without a fault, and in the final memory every buffer the program does
  not scope holds what the fold of those eight segments over the launch memory leaves there (`Gen.W8`): in
  particular the result buffer `main_v49` holds `Gen.W8 m ρ c main_v49`, and each argument its launch contents.
-/
import proofs.«130890_j80968723464705_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last fold's contents, the arguments as launched. -/
theorem run_named : θ_run defs (onTc (τ := τ) (main (F := F))) ⟨m, fun _ => 0, ρ⟩ (fun r => ∀ c : Dev nD,
      r.2.mem ((c.tc : Thread nD τ).loc main_v49) = W8 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v49 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Run

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.LibPlainDot.lean ====
/-
  The plain matrix product's dimension numbers contract columns with rows.

  For the dimension numbers of an `R × K` by `K × N` product (`DotDims.plain`: the left operand's axis 1 against the
  right operand's axis 0, the other two axes kept in order) the contraction index is one coordinate `k < K`, and at
  result entry `(r, q)` the left operand is read at `(r, k)` and the right one at `(k, q)`.
-/
import proofs.«130890_j80968723464705_2_alg».proof.Proof.LibMatProd

noncomputable section

namespace Cert.Linear

open Idealize.ShloMosaic Idealize.ShloMosaic.ValueIdx

/-- `DotDims.plain R K N` contracts the left operand's columns with the right operand's rows. -/
theorem contracts_plain (R K N : Nat) : Contracts (DotDims.plain R K N) where
  rank := rfl
  size := rfl
  lhs0 := fun i q => by
    have hb : (0 : Fin 2) ∉ (DotDims.plain R K N).lhsBatch := show (0 : Fin 2) ∉ ([] : List (Fin 2)) from List.not_mem_nil
    have hn : (0 : Fin 2) ∈ (DotDims.plain R K N).lhsNonContracting :=
      show (0 : Fin 2) ∈ ([0] : List (Fin 2)) from List.mem_singleton.mpr rfl
    unfold DotDims.lhsIdx
    rw [dif_neg hb, dif_pos hn]
    rfl
  lhs1 := fun i q => (DotDims.plain R K N).lhsIdx_val_of_single (cl := 1) rfl i q
  rhs0 := fun i q => (DotDims.plain R K N).rhsIdx_val_of_single (cr := 0) rfl i q
  rhs1 := fun i q => by
    have hb : (1 : Fin 2) ∉ (DotDims.plain R K N).rhsBatch := show (1 : Fin 2) ∉ ([] : List (Fin 2)) from List.not_mem_nil
    have hn : (1 : Fin 2) ∈ (DotDims.plain R K N).rhsNonContracting :=
      show (1 : Fin 2) ∈ ([1] : List (Fin 2)) from List.mem_singleton.mpr rfl
    unfold DotDims.rhsIdx
    rw [dif_neg hb, dif_pos hn]
    rfl

end Cert.Linear

end
-- ==== Proof.KPayload.lean ====
/-
  What each kernel body stores, read at one entry of its block.

  The first body, on a block of 5000 rows: with `a` the block of aggregated features, `d` and `s` the two columns of
  degree norms, `W₁`, `b` and `W₂` the weights, entry `(p, q)` of what it stores is
      ∑ k, (max ((∑ j, (a (p, j) · d p) · W₁ (j, k)) + b k) 0 · s p) · W₂ (k, q):
  a matrix product into a zero accumulator is the plain sum of products, a change of float format is the identity on the
  extended reals, and a column or a row spread over the block reads its one entry.
  The second body stores `a (p, q) · d p + b q`.
-/
import proofs.«130890_j80968723464705_2_alg».proof.Proof.Gen.KernelIdeal.Skeleton
import proofs.«130890_j80968723464705_2_alg».proof.Proof.LibPlainDot
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Linear

/-- A column `[R, 1]` spread over `C` columns reads, at `(p, k)`, the column's entry of row `p`. -/
theorem spreadCol_apply {α : Type} {R C : Nat} (v : (⟨2, ![R, 1]⟩ : Shape).Idx → α)
    (h : (⟨2, ![R, 1]⟩ : Shape).Broadcasts ⟨2, ![R, C]⟩) (p : Fin R) (k : Fin C) :
    broadcastTo ⟨2, ![R, C]⟩ v h (ix2 p k) = v (ix2 p (0 : Fin 1)) := by
  refine broadcastTo_apply v h (ix2 p k) (ix2 p (0 : Fin 1)) fun ax => ?_
  match ax with
  | ⟨0, _⟩ =>
    show p.val = if R = 1 then 0 else p.val
    split
    · have := p.isLt; omega
    · rfl
  | ⟨1, _⟩ => rfl

/-- The plain product read at `(p, q)`. -/
theorem matProd_ix2 {R K N : Nat} (X : (Mat R K).Idx → EReal) (W : (Mat K N).Idx → EReal) (p : Fin R) (q : Fin N) :
    matProd X W (ix2 p q) = ∑ k : Fin K, X (ix2 p k) * W (ix2 k q) := rfl

theorem contracts_b64 : @Contracts 5000 64 64 dot_S5000x64_S64x64_S5000x64_1_0_0_1_n_n := contracts_plain 5000 64 64
theorem contracts_b16 : @Contracts 5000 64 16 dot_S5000x64_S64x16_S5000x16_1_0_0_1_n_n := contracts_plain 5000 64 16

/-- The first body's inner product, into the zero splat, is the plain product. -/
theorem mm_b64 {φ₁ φ₂ : FTy} (X : FVec Ideal S5000x64 φ₁) (W : FVec Ideal S64x64 φ₂) :
    matmul dot_S5000x64_S64x64_S5000x64_1_0_0_1_n_n none X W (constant (F := Ideal) S5000x64 .f32 0x00000000#32) = matProd X W :=
  matmul_zero_eq contracts_b64 none X W
/-- The first body's outer product, into the zero splat, is the plain product. -/
theorem mm_b16 {φ₁ φ₂ : FTy} (X : FVec Ideal S5000x64 φ₁) (W : FVec Ideal S64x16 φ₂) :
    matmul dot_S5000x64_S64x16_S5000x16_1_0_0_1_n_n none X W (constant (F := Ideal) S5000x16 .f32 0x00000000#32) = matProd X W :=
  matmul_zero_eq contracts_b16 none X W

/-- THE FIRST BODY'S STORE at `(p, q)`. -/
theorem pay0_apply (a : Vec Ideal S5000x64 .f32) (d : Vec Ideal S5000x1 .f32) (w1 : Vec Ideal S64x64 .f32)
    (b : Vec Ideal S1x64 .f32) (s : Vec Ideal S5000x1 .f32) (w2 : Vec Ideal S64x16 .f32) (p : Fin 5000) (q : Fin 16) :
    k0_pay1 a d w1 b s w2 (ix2 p q)
      = ∑ k : Fin 64, (max ((∑ j : Fin 64, (a (ix2 p j) * d (ix2 p (0 : Fin 1))) * w1 (ix2 j k)) + b (ix2 (0 : Fin 1) k)) 0
          * s (ix2 p (0 : Fin 1))) * w2 (ix2 k q) := by
  simp only [k0_pay1, shapeCast_self]
  rw [mm_b16, mm_b64, matProd_ix2]
  refine Finset.sum_congr rfl fun k _ => ?_
  rw [truncf_apply, truncf_apply, mulf_apply, maximumf_apply, addf_apply, matProd_ix2, spreadCol_apply,
    broadcastTo_1b_ab_apply, broadcast_apply]
  have hz : (Scalar.ofBits (F := Ideal) .f32 0x00000000#32 : EReal) = 0 := Ideal.ofBits_zero_f32
  rw [hz]
  simp only [truncf_apply, mulf_apply, spreadCol_apply]

/-- THE SECOND BODY'S STORE at `(p, q)`. -/
theorem pay1_apply (a : Vec Ideal S5000x16 .f32) (d : Vec Ideal S5000x1 .f32) (b : Vec Ideal S1x16 .f32) (p : Fin 5000) (q : Fin 16) :
    k1_pay1 a d b (ix2 p q) = a (ix2 p q) * d (ix2 p (0 : Fin 1)) + b (ix2 (0 : Fin 1) q) := by
  simp only [k1_pay1, shapeCast_self]
  rw [addf_apply, mulf_apply, spreadCol_apply, broadcastTo_1b_ab_apply]

end Cert.KernelIdeal.Payload

end
-- ==== Proof.KBlocks.lean ====
/-
  From blocks to whole arrays, for each of the two pallas_calls, at ANY contents `V` the region is entered with.

  Both grids have 20 points; at point `t` every row-blocked window (5000 rows) holds rows `5000 t … 5000 t + 4999` of its
  array and every weight window its whole array. Point `t` of the first call therefore writes back rows
  `5000 t …` of ONE function of the arrays (`G0`: row `v`, column `q` is
  `∑ k, (max ((∑ j, (A (v, j) · d v) · W₁ (j, k)) + b k) 0 · s v) · W₂ (k, q)`), the twenty blocks tile the result array,
  and so the array ends holding `G0`. Likewise the second call's result ends holding `G1`: `A (v, q) · d v + b q`.
-/
import proofs.«130890_j80968723464705_2_alg».proof.Proof.Gen.KernelIdeal.Frame
import proofs.«130890_j80968723464705_2_alg».proof.Proof.KPayload

set_option maxRecDepth 16384

noncomputable section

open scoped BigOperators

namespace Cert.KernelIdeal.Blocks

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The two whole-array functions -/

/-- Entry `(v, q)` of the first call's result, from the arrays its windows stage. -/
def G0pt (A : S100000x64.Idx → EReal) (dcol scol : S100000x1.Idx → EReal) (W1 : S64x64.Idx → EReal)
    (brow : S1x64.Idx → EReal) (W2 : S64x16.Idx → EReal) (v : Fin 100000) (q : Fin 16) : EReal :=
  ∑ k : Fin 64, (max ((∑ j : Fin 64, (A (ix2 v j) * dcol (ix2 v (0 : Fin 1))) * W1 (ix2 j k)) + brow (ix2 (0 : Fin 1) k)) 0
    * scol (ix2 v (0 : Fin 1))) * W2 (ix2 k q)

/-- The first call's result array as one function of the arrays its windows stage. -/
def G0 (A : S100000x64.Idx → EReal) (dcol scol : S100000x1.Idx → EReal) (W1 : S64x64.Idx → EReal)
    (brow : S1x64.Idx → EReal) (W2 : S64x16.Idx → EReal) : S100000x16.Idx → EReal :=
  fun i => G0pt A dcol scol W1 brow W2 ⟨(i 0).val, idx2_lt0 i⟩ ⟨(i 1).val, idx2_lt1 i⟩

/-- Entry `(v, q)` of the second call's result. -/
def G1pt (A : S100000x16.Idx → EReal) (dcol : S100000x1.Idx → EReal) (brow : S1x16.Idx → EReal) (v : Fin 100000) (q : Fin 16) : EReal :=
  A (ix2 v q) * dcol (ix2 v (0 : Fin 1)) + brow (ix2 (0 : Fin 1) q)

/-- The second call's result array as one function of the arrays its windows stage. -/
def G1 (A : S100000x16.Idx → EReal) (dcol : S100000x1.Idx → EReal) (brow : S1x16.Idx → EReal) : S100000x16.Idx → EReal :=
  fun i => G1pt A dcol brow ⟨(i 0).val, idx2_lt0 i⟩ ⟨(i 1).val, idx2_lt1 i⟩

theorem G0_ix2 (A dcol scol W1 brow W2) (v : Fin 100000) (q : Fin 16) :
    G0 A dcol scol W1 brow W2 (ix2 v q) = G0pt A dcol scol W1 brow W2 v q := rfl
theorem G1_ix2 (A dcol brow) (v : Fin 100000) (q : Fin 16) : G1 A dcol brow (ix2 v q) = G1pt A dcol brow v q := rfl

theorem hz : (![0, 0] : Fin 2 → Nat) = fun _ => 0 := funext fun a => by fin_cases a <;> rfl

/-! ## The printed index maps, decided once over each grid -/

theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = t.val ∧ win1_3.index t (1 : Fin 2) = 0) :=
  (by decide +kernel : ∀ t : Fin grid1.N, _)

theorem lt20_0 (t : Fin cfg0.N) : t.val < 20 := lt_of_lt_of_eq t.isLt N_0
theorem lt20_1 (t : Fin cfg1.N) : t.val < 20 := lt_of_lt_of_eq t.isLt N_1

section AtV
variable (V : (c : Dev nD) → (b : Ref sig .tc) → Buf (Elt Ideal) ((c : Thread nD τ).loc b))

/-! ## Each window's block at a point, read at an entry -/

theorem blk0_0 (c : Dev nD) (t : Fin cfg0.N) (p : Fin 5000) (k : Fin 64) (h : t.val * 5000 + p.val < 100000) :
    iblk0 V c 0 t (ix2 p k) = V c main_v32 (ix2 (⟨t.val * 5000 + p.val, h⟩ : Fin 100000) k) := by
  show V c main_v32 (((cfg0.win 0).blk t).view.emb (ix2 p k)) = _
  refine congrArg (V c main_v32) (funext fun a => Fin.ext ?_)
  have e0 := (idx0 t).1.1
  have e1 := (idx0 t).1.2
  match a with
  | ⟨0, _⟩ => show win0_0.index t (0 : Fin 2) * 5000 + 1 * p.val = t.val * 5000 + p.val; omega
  | ⟨1, _⟩ => show win0_0.index t (1 : Fin 2) * 64 + 1 * k.val = k.val; omega

theorem blk0_1 (c : Dev nD) (t : Fin cfg0.N) (p : Fin 5000) (k : Fin 1) (h : t.val * 5000 + p.val < 100000) :
    iblk0 V c 1 t (ix2 p k) = V c main_v33 (ix2 (⟨t.val * 5000 + p.val, h⟩ : Fin 100000) k) := by
  show V c main_v33 (((cfg0.win 1).blk t).view.emb (ix2 p k)) = _
  refine congrArg (V c main_v33) (funext fun a => Fin.ext ?_)
  have e0 := (idx0 t).2.1.1
  have e1 := (idx0 t).2.1.2
  match a with
  | ⟨0, _⟩ => show win0_1.index t (0 : Fin 2) * 5000 + 1 * p.val = t.val * 5000 + p.val; omega
  | ⟨1, _⟩ => show win0_1.index t (1 : Fin 2) * 1 + 1 * k.val = k.val; omega

theorem blk0_2 (c : Dev nD) (t : Fin cfg0.N) (p : Fin 5000) (k : Fin 1) (h : t.val * 5000 + p.val < 100000) :
    iblk0 V c 2 t (ix2 p k) = V c main_v34 (ix2 (⟨t.val * 5000 + p.val, h⟩ : Fin 100000) k) := by
  show V c main_v34 (((cfg0.win 2).blk t).view.emb (ix2 p k)) = _
  refine congrArg (V c main_v34) (funext fun a => Fin.ext ?_)
  have e0 := (idx0 t).2.2.1.1
  have e1 := (idx0 t).2.2.1.2
  match a with
  | ⟨0, _⟩ => show win0_2.index t (0 : Fin 2) * 5000 + 1 * p.val = t.val * 5000 + p.val; omega
  | ⟨1, _⟩ => show win0_2.index t (1 : Fin 2) * 1 + 1 * k.val = k.val; omega

theorem blk0_3 (c : Dev nD) (t : Fin cfg0.N) (p : Fin 64) (k : Fin 64) :
    iblk0 V c 3 t (ix2 p k) = V c main_arg3 (ix2 p k) := by
  show V c main_arg3 (((cfg0.win 3).blk t).view.emb (ix2 p k)) = _
  refine congrArg (V c main_arg3) (funext fun a => Fin.ext ?_)
  have e0 := (idx0 t).2.2.2.1.1
  have e1 := (idx0 t).2.2.2.1.2
  match a with
  | ⟨0, _⟩ => show win0_3.index t (0 : Fin 2) * 64 + 1 * p.val = p.val; omega
  | ⟨1, _⟩ => show win0_3.index t (1 : Fin 2) * 64 + 1 * k.val = k.val; omega

theorem blk0_4 (c : Dev nD) (t : Fin cfg0.N) (p : Fin 1) (k : Fin 64) :
    iblk0 V c 4 t (ix2 p k) = V c main_v35 (ix2 p k) := by
  show V c main_v35 (((cfg0.win 4).blk t).view.emb (ix2 p k)) = _
  refine congrArg (V c main_v35) (funext fun a => Fin.ext ?_)
  have e0 := (idx0 t).2.2.2.2.1.1
  have e1 := (idx0 t).2.2.2.2.1.2
  match a with
  | ⟨0, _⟩ => show win0_4.index t (0 : Fin 2) * 1 + 1 * p.val = p.val; omega
  | ⟨1, _⟩ => show win0_4.index t (1 : Fin 2) * 64 + 1 * k.val = k.val; omega

theorem blk0_5 (c : Dev nD) (t : Fin cfg0.N) (p : Fin 64) (k : Fin 16) :
    iblk0 V c 5 t (ix2 p k) = V c main_arg5 (ix2 p k) := by
  show V c main_arg5 (((cfg0.win 5).blk t).view.emb (ix2 p k)) = _
  refine congrArg (V c main_arg5) (funext fun a => Fin.ext ?_)
  have e0 := (idx0 t).2.2.2.2.2.1.1
  have e1 := (idx0 t).2.2.2.2.2.1.2
  match a with
  | ⟨0, _⟩ => show win0_5.index t (0 : Fin 2) * 64 + 1 * p.val = p.val; omega
  | ⟨1, _⟩ => show win0_5.index t (1 : Fin 2) * 16 + 1 * k.val = k.val; omega

theorem blk1_0 (c : Dev nD) (t : Fin cfg1.N) (p : Fin 5000) (k : Fin 16) (h : t.val * 5000 + p.val < 100000) :
    iblk1 V c 0 t (ix2 p k) = V c main_v46 (ix2 (⟨t.val * 5000 + p.val, h⟩ : Fin 100000) k) := by
  show V c main_v46 (((cfg1.win 0).blk t).view.emb (ix2 p k)) = _
  refine congrArg (V c main_v46) (funext fun a => Fin.ext ?_)
  have e0 := (idx1 t).1.1
  have e1 := (idx1 t).1.2
  match a with
  | ⟨0, _⟩ => show win1_0.index t (0 : Fin 2) * 5000 + 1 * p.val = t.val * 5000 + p.val; omega
  | ⟨1, _⟩ => show win1_0.index t (1 : Fin 2) * 16 + 1 * k.val = k.val; omega

theorem blk1_1 (c : Dev nD) (t : Fin cfg1.N) (p : Fin 5000) (k : Fin 1) (h : t.val * 5000 + p.val < 100000) :
    iblk1 V c 1 t (ix2 p k) = V c main_v47 (ix2 (⟨t.val * 5000 + p.val, h⟩ : Fin 100000) k) := by
  show V c main_v47 (((cfg1.win 1).blk t).view.emb (ix2 p k)) = _
  refine congrArg (V c main_v47) (funext fun a => Fin.ext ?_)
  have e0 := (idx1 t).2.1.1
  have e1 := (idx1 t).2.1.2
  match a with
  | ⟨0, _⟩ => show win1_1.index t (0 : Fin 2) * 5000 + 1 * p.val = t.val * 5000 + p.val; omega
  | ⟨1, _⟩ => show win1_1.index t (1 : Fin 2) * 1 + 1 * k.val = k.val; omega

theorem blk1_2 (c : Dev nD) (t : Fin cfg1.N) (p : Fin 1) (k : Fin 16) :
    iblk1 V c 2 t (ix2 p k) = V c main_v48 (ix2 p k) := by
  show V c main_v48 (((cfg1.win 2).blk t).view.emb (ix2 p k)) = _
  refine congrArg (V c main_v48) (funext fun a => Fin.ext ?_)
  have e0 := (idx1 t).2.2.1.1
  have e1 := (idx1 t).2.2.1.2
  match a with
  | ⟨0, _⟩ => show win1_2.index t (0 : Fin 2) * 1 + 1 * p.val = p.val; omega
  | ⟨1, _⟩ => show win1_2.index t (1 : Fin 2) * 16 + 1 * k.val = k.val; omega

/-- Where entry `(p, q)` of the first call's output block at point `t` lies in the result array. -/
theorem emb0_6 (t : Fin cfg0.N) (p : Fin 5000) (q : Fin 16) (h : t.val * 5000 + p.val < 100000) :
    ((cfg0.win 6).blk t).view.emb (ix2 p q) = (ix2 (⟨t.val * 5000 + p.val, h⟩ : Fin 100000) q : S100000x16.Idx) := by
  funext a
  refine Fin.ext ?_
  have e0 := (idx0 t).2.2.2.2.2.2.1
  have e1 := (idx0 t).2.2.2.2.2.2.2
  match a with
  | ⟨0, _⟩ => show win0_6.index t (0 : Fin 2) * 5000 + 1 * p.val = t.val * 5000 + p.val; omega
  | ⟨1, _⟩ => show win0_6.index t (1 : Fin 2) * 16 + 1 * q.val = q.val; omega

/-- Where entry `(p, q)` of the second call's output block at point `t` lies in the result array. -/
theorem emb1_3 (t : Fin cfg1.N) (p : Fin 5000) (q : Fin 16) (h : t.val * 5000 + p.val < 100000) :
    ((cfg1.win 3).blk t).view.emb (ix2 p q) = (ix2 (⟨t.val * 5000 + p.val, h⟩ : Fin 100000) q : S100000x16.Idx) := by
  funext a
  refine Fin.ext ?_
  have e0 := (idx1 t).2.2.2.1
  have e1 := (idx1 t).2.2.2.2
  match a with
  | ⟨0, _⟩ => show win1_3.index t (0 : Fin 2) * 5000 + 1 * p.val = t.val * 5000 + p.val; omega
  | ⟨1, _⟩ => show win1_3.index t (1 : Fin 2) * 16 + 1 * q.val = q.val; omega

/-! ## What a point writes back -/

/-- Point `t` of the first call writes back block `t` of `G0` of the arrays as the region finds them. -/
theorem flushed0 (c : Dev nD) (t : Fin cfg0.N) :
    (dat0 V c).flushed 6 t = ((cfg0.win 6).blk t).view.read (Elt Ideal)
      (G0 (V c main_v32) (V c main_v33) (V c main_v34) (V c main_arg3) (V c main_v35) (V c main_arg5)) := by
  show (cfg0.win 6).cut (grid0.coords t) ((dat0 V c).after 6 t) = _
  rw [after0_6]
  unfold out0_6
  rw [View.canon_unit_zero hz]
  simp only [View.ld_unit_zero (S := S5000x64) hz, View.ld_unit_zero (S := S5000x1) hz, View.ld_unit_zero (S := S64x64) hz,
    View.ld_unit_zero (S := S1x64) hz, View.ld_unit_zero (S := S64x16) hz]
  funext j
  have ht := lt20_0 t
  obtain ⟨p, q, rfl⟩ : ∃ (p : Fin 5000) (q : Fin 16), j = ix2 p q := ⟨j 0, j 1, eq_ix2 j⟩
  have hr : t.val * 5000 + p.val < 100000 := by have := p.isLt; omega
  show k0_pay1 (iblk0 V c 0 t) (iblk0 V c 1 t) (iblk0 V c 3 t) (iblk0 V c 4 t) (iblk0 V c 2 t) (iblk0 V c 5 t) (ix2 p q)
    = G0 (V c main_v32) (V c main_v33) (V c main_v34) (V c main_arg3) (V c main_v35) (V c main_arg5) (((cfg0.win 6).blk t).view.emb (ix2 p q))
  rw [emb0_6 t p q hr, G0_ix2]
  refine (Payload.pay0_apply (iblk0 V c 0 t) (iblk0 V c 1 t) (iblk0 V c 3 t) (iblk0 V c 4 t) (iblk0 V c 2 t) (iblk0 V c 5 t) p q).trans ?_
  unfold G0pt
  simp only [blk0_0 V c t p _ hr, blk0_1 V c t p 0 hr, blk0_2 V c t p 0 hr, blk0_3 V c t, blk0_4 V c t, blk0_5 V c t]

/-- Point `t` of the second call writes back block `t` of `G1` of the arrays as the region finds them. -/
theorem flushed1 (c : Dev nD) (t : Fin cfg1.N) :
    (dat1 V c).flushed 3 t = ((cfg1.win 3).blk t).view.read (Elt Ideal)
      (G1 (V c main_v46) (V c main_v47) (V c main_v48)) := by
  show (cfg1.win 3).cut (grid1.coords t) ((dat1 V c).after 3 t) = _
  rw [after1_3]
  unfold out1_3
  rw [View.canon_unit_zero hz]
  simp only [View.ld_unit_zero (S := S5000x16) hz, View.ld_unit_zero (S := S5000x1) hz, View.ld_unit_zero (S := S1x16) hz]
  funext j
  have ht := lt20_1 t
  obtain ⟨p, q, rfl⟩ : ∃ (p : Fin 5000) (q : Fin 16), j = ix2 p q := ⟨j 0, j 1, eq_ix2 j⟩
  have hr : t.val * 5000 + p.val < 100000 := by have := p.isLt; omega
  show k1_pay1 (iblk1 V c 0 t) (iblk1 V c 1 t) (iblk1 V c 2 t) (ix2 p q)
    = G1 (V c main_v46) (V c main_v47) (V c main_v48) (((cfg1.win 3).blk t).view.emb (ix2 p q))
  rw [emb1_3 t p q hr, G1_ix2]
  refine (Payload.pay1_apply (iblk1 V c 0 t) (iblk1 V c 1 t) (iblk1 V c 2 t) p q).trans ?_
  unfold G1pt
  rw [blk1_0 V c t p q hr, blk1_1 V c t p 0 hr, blk1_2 V c t 0 q]

/-! ## The blocks tile the result arrays -/

theorem mem_blk0_6 (t : Fin cfg0.N) (i : S100000x16.Idx) :
    i ∈ ((cfg0.win 6).blk t).view.set ↔ ∀ a : Fin 2, win0_6.index t a * S5000x16.size a ≤ (i a).val ∧ (i a).val < win0_6.index t a * S5000x16.size a + S5000x16.size a := by
  show i ∈ ((View.whole main_v36).slice (win0_6.rect t)).set ↔ _
  rw [View.set_slice_whole, Rect.mem_set_unit]
  exact Iff.rfl

theorem mem_blk1_3 (t : Fin cfg1.N) (i : S100000x16.Idx) :
    i ∈ ((cfg1.win 3).blk t).view.set ↔ ∀ a : Fin 2, win1_3.index t a * S5000x16.size a ≤ (i a).val ∧ (i a).val < win1_3.index t a * S5000x16.size a + S5000x16.size a := by
  show i ∈ ((View.whole main_v49).slice (win1_3.rect t)).set ↔ _
  rw [View.set_slice_whole, Rect.mem_set_unit]
  exact Iff.rfl

/-- Row `r` of the first call's result is in the block of point `r / 5000`. -/
theorem cover0 (i : S100000x16.Idx) : ∃ t : Fin cfg0.N, (cfg0.win 6).flush t = true ∧ i ∈ ((cfg0.win 6).blk t).view.set := by
  have hi0 : (i 0).val < 100000 := (i 0).isLt
  have hi1 : (i 1).val < 16 := (i 1).isLt
  let t : Fin cfg0.N := ⟨(i 0).val / 5000, lt_of_lt_of_eq (show (i 0).val / 5000 < 20 by omega) N_0.symm⟩
  refine ⟨t, flush0_6 t, ?_⟩
  rw [mem_blk0_6]
  have e0 := (idx0 t).2.2.2.2.2.2.1
  have e1 := (idx0 t).2.2.2.2.2.2.2
  have tv : t.val = (i 0).val / 5000 := rfl
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 16 ≤ (i 1).val ∧ (i 1).val < win0_6.index t (1 : Fin 2) * 16 + 16; omega

/-- Row `r` of the second call's result is in the block of point `r / 5000`. -/
theorem cover1 (i : S100000x16.Idx) : ∃ t : Fin cfg1.N, (cfg1.win 3).flush t = true ∧ i ∈ ((cfg1.win 3).blk t).view.set := by
  have hi0 : (i 0).val < 100000 := (i 0).isLt
  have hi1 : (i 1).val < 16 := (i 1).isLt
  let t : Fin cfg1.N := ⟨(i 0).val / 5000, lt_of_lt_of_eq (show (i 0).val / 5000 < 20 by omega) N_1.symm⟩
  refine ⟨t, flush1_3 t, ?_⟩
  rw [mem_blk1_3]
  have e0 := (idx1 t).2.2.2.1
  have e1 := (idx1 t).2.2.2.2
  have tv : t.val = (i 0).val / 5000 := rfl
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 16 ≤ (i 1).val ∧ (i 1).val < win1_3.index t (1 : Fin 2) * 16 + 16; omega

/-! ## The result arrays after each call -/

/-- The first call's result array ends holding `G0` of the arrays as the region finds them. -/
theorem final0 (c : Dev nD) : (dat0 V c).arrAt 6 cfg0.N
    = G0 (V c main_v32) (V c main_v33) (V c main_v34) (V c main_arg3) (V c main_v35) (V c main_arg5) :=
  (dat0 V c).arrAt_eq_of_cover 6 _ (fun t _ => flushed0 V c t) cover0

/-- The second call's result array ends holding `G1` of the arrays as the region finds them. -/
theorem final1 (c : Dev nD) : (dat1 V c).arrAt 3 cfg1.N = G1 (V c main_v46) (V c main_v47) (V c main_v48) :=
  (dat1 V c).arrAt_eq_of_cover 3 _ (fun t _ => flushed1 V c t) cover1

end AtV

end Cert.KernelIdeal.Blocks

end
-- ==== Proof.KHost.lean ====
/-
  The host operations of the kernel's @main, read back as functions of the buffers they start from.

  Before the first pallas_call, five stretches of host operations compute, from the argument buffers of ANY starting
  contents `X`: the two degree norms, the first layer's aggregate `agg (x · norm src)` (the reference's own operations,
  one for one), the two norms re-laid as columns, the bias re-laid as a row. Between the two pallas_calls one more
  stretch gathers the rows of the first call's result along `src`, adds them into the rows `dst` of a zero array
  (`agg16`, the 16-column twin of the specification's `agg`), and re-lays the destination norm and the second bias.
-/
import proofs.«130890_j80968723464705_2_alg».proof.Proof.Gen.KernelIdeal.Launch
import proofs.«130890_j80968723464705_2_alg».proof.Proof.Spec
import Idealize.ShloMosaic.Lib.StableHlo.Run

set_option maxRecDepth 16384

noncomputable section

namespace Cert.KernelIdeal.HostReads

open Cert.KernelIdeal Cert.KernelIdeal.Gen
open Idealize.ShloMosaic Idealize.ShloMosaic.TcCoe Idealize.ShloMosaic.StableHlo Idealize.SL.Sem

/-- The kernel program's own spelling of the degree count (the specification's `deg`, over this program's records). -/
def degK (idx : IVec S1600000 32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 idx)
    (broadcastInDim S1600000 ![] bcast_S_S1600000 (constant (F := Ideal) S_ .f32 0x3F800000#32))

/-- The kernel program's own spelling of the degree norm. -/
def normK (idx : IVec S1600000 32) : FVec Ideal S100000 .f32 :=
  select (cmpf (F := Ideal) .ogt (degK idx) (broadcastInDim S100000 ![] bcast_S_S100000 (constant (F := Ideal) S_ .f32 0x00000000#32)))
    (Host.rsqrt (maximumf (degK idx) (broadcastInDim S100000 ![] bcast_S_S100000 (constant (F := Ideal) S_ .f32 0x3F800000#32))))
    (broadcastInDim S100000 ![] bcast_S_S100000 (id (constant (F := Ideal) S_ .f32 0x3F800000#32)))

/-- A per-node vector spread over the 64 feature columns, in the kernel program's spelling. -/
def colK (n : FVec Ideal S100000 .f32) : FVec Ideal S100000x64 .f32 :=
  broadcastInDim S100000x64 ![0, 1] bcast_S100000x1_S100000x64_0_1 (broadcastInDim S100000x1 ![0] bcast_S100000_S100000x1_0 n)

/-- An edge index below zero wrapped once by the number of nodes, in the kernel program's spelling. -/
def wrapK (idx : IVec S1600000 32) : IVec S1600000 32 :=
  select (cmpi .slt idx (broadcastInDim S1600000 ![] bcast_S_S1600000 (constantI S_ 32 0#32)))
    (addi idx (broadcastInDim S1600000 ![] bcast_S_S1600000 (constantI S_ 32 100000#32))) idx

/-- The 64-column aggregate, in the kernel program's spelling. -/
def aggK (y : FVec Ideal S100000x64 .f32) (src dst : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 y
      (broadcastInDim S1600000x1 ![0] bcast_S1600000_S1600000x1_0 (wrapK src)))

/-- The messages `y[src e]` (16 columns) summed into the rows `dst e` of a zero array. -/
def agg16 (y : FVec Ideal S100000x16 .f32) (src dst : IVec S1600000 32) : FVec Ideal S100000x16 .f32 :=
  Host.scatterAdd scatter_S100000x16_S1600000x1_S1600000x16_1_0_0_1
    (broadcastInDim S100000x16 ![] bcast_S_S100000x16 (constant (F := Ideal) S_ .f32 0x00000000#32))
    (broadcastInDim S1600000x1 ![0] bcast_S1600000_S1600000x1_0 dst)
    (Host.gather gather_S100000x16_S1600000x1_S1600000x16_1_0_n_n_0_1_116 y
      (broadcastInDim S1600000x1 ![0] bcast_S1600000_S1600000x1_0 (wrapK src)))

/-- A per-node vector re-laid as a column. -/
abbrev asCol (n : FVec Ideal S100000 .f32) : FVec Ideal S100000x1 .f32 := shapeCast S100000x1 n shapeCasts_S100000_S100000x1

/-! ## The kernel program's spellings ARE the specification's functions (the two programs print the same operations) -/

theorem degK_eq (idx : IVec S1600000 32) : degK idx = Cert.Spec.deg idx := rfl
theorem wrapK_eq (idx : IVec S1600000 32) : wrapK idx = Cert.Spec.wrap idx := rfl
theorem colK_eq (n : FVec Ideal S100000 .f32) : colK n = Cert.Spec.col n := rfl
theorem normK_eq (idx : IVec S1600000 32) : normK idx = Cert.Spec.norm idx := by
  unfold normK Cert.Spec.norm
  rw [degK_eq]
theorem aggK_eq (y : FVec Ideal S100000x64 .f32) (src dst : IVec S1600000 32) : aggK y src dst = Cert.Spec.agg y src dst := by
  unfold aggK Cert.Spec.agg
  rw [wrapK_eq]
  rfl

/-! ## A value moved to a literal buffer's own type and back is the value itself -/

theorem ofBuf_main_cst_3 (v : FVec Ideal S_ .f32) : (TRef.of (sig := sig) (T := ⟨S_, .f32⟩) main_cst_3).ofBuf (Val := Elt Ideal) v = v := cast_eq _ _
theorem toBuf_main_cst_3 (v : FVec Ideal S_ .f32) : (TRef.of (sig := sig) (T := ⟨S_, .f32⟩) main_cst_3).toBuf (Val := Elt Ideal) v = v := cast_eq _ _
theorem ofBuf_main_call0_v0 (v : FVec Ideal S_ .f32) : (TRef.of (sig := sig) (T := ⟨S_, .f32⟩) main_call0_v0).ofBuf (Val := Elt Ideal) v = v := cast_eq _ _
theorem toBuf_main_call0_v0 (v : FVec Ideal S_ .f32) : (TRef.of (sig := sig) (T := ⟨S_, .f32⟩) main_call0_v0).toBuf (Val := Elt Ideal) v = v := cast_eq _ _
theorem ofBuf_main_call0_v1 (v : FVec Ideal S100000 .f32) : (TRef.of (sig := sig) (T := ⟨S100000, .f32⟩) main_call0_v1).ofBuf (Val := Elt Ideal) v = v := cast_eq _ _
theorem toBuf_main_call0_v1 (v : FVec Ideal S100000 .f32) : (TRef.of (sig := sig) (T := ⟨S100000, .f32⟩) main_call0_v1).toBuf (Val := Elt Ideal) v = v := cast_eq _ _
theorem ofBuf_main_v5 (v : IVec S100000 1) : (TRef.of (sig := sig) (T := ⟨S100000, .i1⟩) main_v5).ofBuf (Val := Elt Ideal) v = v := cast_eq _ _
theorem toBuf_main_v5 (v : IVec S100000 1) : (TRef.of (sig := sig) (T := ⟨S100000, .i1⟩) main_v5).toBuf (Val := Elt Ideal) v = v := cast_eq _ _
theorem ofBuf_main_v8 (v : FVec Ideal S100000 .f32) : (TRef.of (sig := sig) (T := ⟨S100000, .f32⟩) main_v8).ofBuf (Val := Elt Ideal) v = v := cast_eq _ _
theorem toBuf_main_v8 (v : FVec Ideal S100000 .f32) : (TRef.of (sig := sig) (T := ⟨S100000, .f32⟩) main_v8).toBuf (Val := Elt Ideal) v = v := cast_eq _ _
theorem ofBuf_main_v9 (v : FVec Ideal S100000 .f32) : (TRef.of (sig := sig) (T := ⟨S100000, .f32⟩) main_v9).ofBuf (Val := Elt Ideal) v = v := cast_eq _ _
theorem toBuf_main_v9 (v : FVec Ideal S100000 .f32) : (TRef.of (sig := sig) (T := ⟨S100000, .f32⟩) main_v9).toBuf (Val := Elt Ideal) v = v := cast_eq _ _
theorem ofBuf_main_cst_8 (v : FVec Ideal S_ .f32) : (TRef.of (sig := sig) (T := ⟨S_, .f32⟩) main_cst_8).ofBuf (Val := Elt Ideal) v = v := cast_eq _ _
theorem toBuf_main_cst_8 (v : FVec Ideal S_ .f32) : (TRef.of (sig := sig) (T := ⟨S_, .f32⟩) main_cst_8).toBuf (Val := Elt Ideal) v = v := cast_eq _ _
theorem ofBuf_main_call1_v0 (v : FVec Ideal S_ .f32) : (TRef.of (sig := sig) (T := ⟨S_, .f32⟩) main_call1_v0).ofBuf (Val := Elt Ideal) v = v := cast_eq _ _
theorem toBuf_main_call1_v0 (v : FVec Ideal S_ .f32) : (TRef.of (sig := sig) (T := ⟨S_, .f32⟩) main_call1_v0).toBuf (Val := Elt Ideal) v = v := cast_eq _ _
theorem ofBuf_main_call1_v1 (v : FVec Ideal S100000 .f32) : (TRef.of (sig := sig) (T := ⟨S100000, .f32⟩) main_call1_v1).ofBuf (Val := Elt Ideal) v = v := cast_eq _ _
theorem toBuf_main_call1_v1 (v : FVec Ideal S100000 .f32) : (TRef.of (sig := sig) (T := ⟨S100000, .f32⟩) main_call1_v1).toBuf (Val := Elt Ideal) v = v := cast_eq _ _
theorem ofBuf_main_v15 (v : IVec S100000 1) : (TRef.of (sig := sig) (T := ⟨S100000, .i1⟩) main_v15).ofBuf (Val := Elt Ideal) v = v := cast_eq _ _
theorem toBuf_main_v15 (v : IVec S100000 1) : (TRef.of (sig := sig) (T := ⟨S100000, .i1⟩) main_v15).toBuf (Val := Elt Ideal) v = v := cast_eq _ _
theorem ofBuf_main_v18 (v : FVec Ideal S100000 .f32) : (TRef.of (sig := sig) (T := ⟨S100000, .f32⟩) main_v18).ofBuf (Val := Elt Ideal) v = v := cast_eq _ _
theorem toBuf_main_v18 (v : FVec Ideal S100000 .f32) : (TRef.of (sig := sig) (T := ⟨S100000, .f32⟩) main_v18).toBuf (Val := Elt Ideal) v = v := cast_eq _ _
theorem ofBuf_main_v19 (v : FVec Ideal S100000 .f32) : (TRef.of (sig := sig) (T := ⟨S100000, .f32⟩) main_v19).ofBuf (Val := Elt Ideal) v = v := cast_eq _ _
theorem toBuf_main_v19 (v : FVec Ideal S100000 .f32) : (TRef.of (sig := sig) (T := ⟨S100000, .f32⟩) main_v19).toBuf (Val := Elt Ideal) v = v := cast_eq _ _

variable (X : Valuation τ sig (Elt Ideal))

/-- The contents after the five stretches before the first pallas_call, from `X`. -/
abbrev pre : Valuation τ sig (Elt Ideal) :=
  after hostOps0_4 (after hostOps0_3 (after hostOps0_2 (after hostOps0_1 (after hostOps0 X))))

theorem pre_v32 : pre X (Proc.devRef .tc main_v32)
    = aggK (mulf (X (Proc.devRef .tc main_arg0)) (colK (normK (X (Proc.devRef .tc main_arg1)))))
        (X (Proc.devRef .tc main_arg1)) (X (Proc.devRef .tc main_arg2)) := by
  simp only [pre, hostOps0, hostOps0_1, hostOps0_2, hostOps0_3, hostOps0_4]
  after_results_simp
  simp only [ofBuf_main_cst_3, toBuf_main_cst_3, ofBuf_main_call0_v0, toBuf_main_call0_v0, ofBuf_main_call0_v1, toBuf_main_call0_v1, ofBuf_main_v5, toBuf_main_v5, ofBuf_main_v8, toBuf_main_v8, ofBuf_main_v9, toBuf_main_v9, ofBuf_main_cst_8, toBuf_main_cst_8, ofBuf_main_call1_v0, toBuf_main_call1_v0, ofBuf_main_call1_v1, toBuf_main_call1_v1, ofBuf_main_v15, toBuf_main_v15, ofBuf_main_v18, toBuf_main_v18, ofBuf_main_v19, toBuf_main_v19]
  rfl

theorem pre_v19 : pre X (Proc.devRef .tc main_v19) = normK (X (Proc.devRef .tc main_arg2)) := by
  simp only [pre, hostOps0, hostOps0_1, hostOps0_2, hostOps0_3, hostOps0_4]
  after_results_simp
  simp only [ofBuf_main_cst_3, toBuf_main_cst_3, ofBuf_main_call0_v0, toBuf_main_call0_v0, ofBuf_main_call0_v1, toBuf_main_call0_v1, ofBuf_main_v5, toBuf_main_v5, ofBuf_main_v8, toBuf_main_v8, ofBuf_main_v9, toBuf_main_v9, ofBuf_main_cst_8, toBuf_main_cst_8, ofBuf_main_call1_v0, toBuf_main_call1_v0, ofBuf_main_call1_v1, toBuf_main_call1_v1, ofBuf_main_v15, toBuf_main_v15, ofBuf_main_v18, toBuf_main_v18, ofBuf_main_v19, toBuf_main_v19]
  rfl

theorem pre_v33 : pre X (Proc.devRef .tc main_v33) = asCol (normK (X (Proc.devRef .tc main_arg2))) := by
  simp only [pre, hostOps0, hostOps0_1, hostOps0_2, hostOps0_3, hostOps0_4]
  after_results_simp
  simp only [ofBuf_main_cst_3, toBuf_main_cst_3, ofBuf_main_call0_v0, toBuf_main_call0_v0, ofBuf_main_call0_v1, toBuf_main_call0_v1, ofBuf_main_v5, toBuf_main_v5, ofBuf_main_v8, toBuf_main_v8, ofBuf_main_v9, toBuf_main_v9, ofBuf_main_cst_8, toBuf_main_cst_8, ofBuf_main_call1_v0, toBuf_main_call1_v0, ofBuf_main_call1_v1, toBuf_main_call1_v1, ofBuf_main_v15, toBuf_main_v15, ofBuf_main_v18, toBuf_main_v18, ofBuf_main_v19, toBuf_main_v19]
  rfl

theorem pre_v34 : pre X (Proc.devRef .tc main_v34) = asCol (normK (X (Proc.devRef .tc main_arg1))) := by
  simp only [pre, hostOps0, hostOps0_1, hostOps0_2, hostOps0_3, hostOps0_4]
  after_results_simp
  simp only [ofBuf_main_cst_3, toBuf_main_cst_3, ofBuf_main_call0_v0, toBuf_main_call0_v0, ofBuf_main_call0_v1, toBuf_main_call0_v1, ofBuf_main_v5, toBuf_main_v5, ofBuf_main_v8, toBuf_main_v8, ofBuf_main_v9, toBuf_main_v9, ofBuf_main_cst_8, toBuf_main_cst_8, ofBuf_main_call1_v0, toBuf_main_call1_v0, ofBuf_main_call1_v1, toBuf_main_call1_v1, ofBuf_main_v15, toBuf_main_v15, ofBuf_main_v18, toBuf_main_v18, ofBuf_main_v19, toBuf_main_v19]
  rfl

theorem pre_v35 : pre X (Proc.devRef .tc main_v35)
    = shapeCast S1x64 (X (Proc.devRef .tc main_arg4)) shapeCasts_S64_S1x64 := by
  simp only [pre, hostOps0, hostOps0_1, hostOps0_2, hostOps0_3, hostOps0_4]
  after_results_simp
  rfl

theorem pre_arg1 : pre X (Proc.devRef .tc main_arg1) = X (Proc.devRef .tc main_arg1) := by
  simp only [pre, hostOps0, hostOps0_1, hostOps0_2, hostOps0_3, hostOps0_4]
  after_results_simp
theorem pre_arg2 : pre X (Proc.devRef .tc main_arg2) = X (Proc.devRef .tc main_arg2) := by
  simp only [pre, hostOps0, hostOps0_1, hostOps0_2, hostOps0_3, hostOps0_4]
  after_results_simp
theorem pre_arg3 : pre X (Proc.devRef .tc main_arg3) = X (Proc.devRef .tc main_arg3) := by
  simp only [pre, hostOps0, hostOps0_1, hostOps0_2, hostOps0_3, hostOps0_4]
  after_results_simp
theorem pre_arg5 : pre X (Proc.devRef .tc main_arg5) = X (Proc.devRef .tc main_arg5) := by
  simp only [pre, hostOps0, hostOps0_1, hostOps0_2, hostOps0_3, hostOps0_4]
  after_results_simp
theorem pre_arg6 : pre X (Proc.devRef .tc main_arg6) = X (Proc.devRef .tc main_arg6) := by
  simp only [pre, hostOps0, hostOps0_1, hostOps0_2, hostOps0_3, hostOps0_4]
  after_results_simp

/-! ## The stretch between the two pallas_calls -/

theorem mid_v46 : after hostOps1 X (Proc.devRef .tc main_v46)
    = agg16 (X (Proc.devRef .tc main_v36)) (X (Proc.devRef .tc main_arg1)) (X (Proc.devRef .tc main_arg2)) := by
  simp only [hostOps1]
  after_results_simp
  rfl

theorem mid_v47 : after hostOps1 X (Proc.devRef .tc main_v47) = asCol (X (Proc.devRef .tc main_v19)) := by
  simp only [hostOps1]
  after_results_simp
  rfl

theorem mid_v48 : after hostOps1 X (Proc.devRef .tc main_v48)
    = shapeCast S1x16 (X (Proc.devRef .tc main_arg6)) shapeCasts_S16_S1x16 := by
  simp only [hostOps1]
  after_results_simp
  rfl

end Cert.KernelIdeal.HostReads

end
-- ==== Proof.KValue.lean ====
/-
  The kernel's result as ONE function of the argument arrays.

  Reading the fold of @main's segments at the result buffer: the second pallas_call leaves `G1` of the arrays it is
  entered with; those are the 16-column aggregate of the first call's result and the re-laid destination norm and
  bias; the first call leaves `G0` of the arrays IT is entered with, which the first five stretches computed from the
  arguments. Composed: `kerOut`.
-/
import proofs.«130890_j80968723464705_2_alg».proof.Proof.KRun
import proofs.«130890_j80968723464705_2_alg».proof.Proof.KBlocks
import proofs.«130890_j80968723464705_2_alg».proof.Proof.KHost

set_option maxRecDepth 16384

noncomputable section

namespace Cert.KernelIdeal.KValue

open Cert.KernelIdeal Cert.KernelIdeal.Gen Cert.KernelIdeal.HostReads
open Idealize.ShloMosaic Idealize.ShloMosaic.TcCoe Idealize.ShloMosaic.StableHlo Idealize.SL.Sem

/-- The first pallas_call's result array, from the arguments. -/
def proj (x : FVec Ideal S100000x64 .f32) (src dst : IVec S1600000 32) (w1 : FVec Ideal S64x64 .f32) (b1 : FVec Ideal S64 .f32)
    (w2 : FVec Ideal S64x16 .f32) : S100000x16.Idx → EReal :=
  Blocks.G0 (Cert.Spec.agg (mulf x (Cert.Spec.col (Cert.Spec.norm src))) src dst) (asCol (Cert.Spec.norm dst)) (asCol (Cert.Spec.norm src))
    w1 (shapeCast S1x64 b1 shapeCasts_S64_S1x64) w2

/-- The kernel's result array, from the arguments. -/
def kerOut (x : FVec Ideal S100000x64 .f32) (src dst : IVec S1600000 32) (w1 : FVec Ideal S64x64 .f32) (b1 : FVec Ideal S64 .f32)
    (w2 : FVec Ideal S64x16 .f32) (b2 : FVec Ideal S16 .f32) : S100000x16.Idx → EReal :=
  Blocks.G1 (agg16 (proj x src dst w1 b1 w2) src dst) (asCol (Cert.Spec.norm dst)) (shapeCast S1x16 b2 shapeCasts_S16_S1x16)

variable (m : (ℓ : Loc nD τ sig) → Buf (Elt Ideal) ℓ) (ρ : Dev nD → PrngReg)

/-- The first call's result buffer when it returns. -/
theorem w6_v36 (c : Dev nD) : W6 m ρ c (Proc.devRef .tc main_v36)
    = proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W6_arr m ρ c 6).trans ?_
  rw [Blocks.final0 (V5 m ρ) c]
  have e32 : V5 m ρ c main_v32 = _ := pre_v32 (W0 m ρ c)
  have e33 : V5 m ρ c main_v33 = _ := pre_v33 (W0 m ρ c)
  have e34 : V5 m ρ c main_v34 = _ := pre_v34 (W0 m ρ c)
  have e35 : V5 m ρ c main_v35 = _ := pre_v35 (W0 m ρ c)
  have e3 : V5 m ρ c main_arg3 = _ := pre_arg3 (W0 m ρ c)
  have e5 : V5 m ρ c main_arg5 = _ := pre_arg5 (W0 m ρ c)
  rw [e32, e33, e34, e35, e3, e5]
  simp only [aggK_eq, colK_eq, normK_eq]
  rfl

/-- The kernel's result buffer at the end of the run. -/
theorem value (c : Dev nD) : W8 m ρ c (Proc.devRef .tc main_v49) = kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W8_arr m ρ c 3).trans ?_
  rw [Blocks.final1 (V7 m ρ) c]
  have e46 : V7 m ρ c main_v46 = _ := mid_v46 (W6 m ρ c)
  have e47 : V7 m ρ c main_v47 = _ := mid_v47 (W6 m ρ c)
  have e48 : V7 m ρ c main_v48 = _ := mid_v48 (W6 m ρ c)
  rw [e46, e47, e48, w6_v36 m ρ c]
  have a1 : W6 m ρ c (Proc.devRef .tc main_arg1) = m ((c.tc : Thread nD τ).loc main_arg1) :=
    (W6_of_ne m ρ c main_arg1 (by decide)).trans (pre_arg1 (W0 m ρ c))
  have a2 : W6 m ρ c (Proc.devRef .tc main_arg2) = m ((c.tc : Thread nD τ).loc main_arg2) :=
    (W6_of_ne m ρ c main_arg2 (by decide)).trans (pre_arg2 (W0 m ρ c))
  have a6 : W6 m ρ c (Proc.devRef .tc main_arg6) = m ((c.tc : Thread nD τ).loc main_arg6) :=
    (W6_of_ne m ρ c main_arg6 (by decide)).trans (pre_arg6 (W0 m ρ c))
  have a19 : W6 m ρ c (Proc.devRef .tc main_v19) = Cert.Spec.norm (m ((c.tc : Thread nD τ).loc main_arg2)) :=
    ((W6_of_ne m ρ c main_v19 (by decide)).trans (pre_v19 (W0 m ρ c))).trans (normK_eq _)
  rw [a1, a2, a6, a19]
  rfl

/-- THE KERNEL'S RUN: every weakly fair execution terminates with the result buffer at `kerOut` of the arguments and
    the arguments unchanged. -/
theorem run : θ_run defs (onTc (τ := τ) (main (F := Ideal))) ⟨m, fun _ => 0, ρ⟩ (fun r => ∀ c : Dev nD,
      r.2.mem ((c.tc : Thread nD τ).loc main_v49) = kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (value m ρ c), (h c).2⟩) (Cert.KernelIdeal.Run.run_named m ρ)

end Cert.KernelIdeal.KValue

end
-- ==== Proof.Reals.lean ====
import Idealize.ShloMosaic.PureOps.Ideal

/-!
Extended reals that are real numbers.

The ideal reading of a float is an extended real. Sums and products of extended reals obey the
ring laws only away from the infinities, so the algebra of a program whose inputs are finite is
done on real witnesses: this file defines the predicate "is a real number", shows that the
operations used keep it, and proves one exchange law for a scaled, weighted double sum.
-/

namespace Cert.Reals

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

theorem isReal_one : IsReal (1 : EReal) := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with hxy | hxy
  · rw [max_eq_right hxy]; exact hy
  · rw [max_eq_left hxy]; exact hx

theorem isReal_sum {ι : Type*} (S : Finset ι) (f : ι → EReal) (h : ∀ i ∈ S, IsReal (f i)) :
    IsReal (∑ i ∈ S, f i) :=
  Finset.sum_induction f IsReal (fun _ _ ha hb => ha.add hb) isReal_zero h

/-- The ideal reciprocal square root of a real number that is at least 1 is a real number. -/
theorem isReal_rsqrt_of_one_le {x : EReal} (hx : IsReal x) (h1 : (1 : EReal) ≤ x) :
    IsReal (Idealize.ShloMosaic.Ideal.rsqrt x) := by
  obtain ⟨r, rfl⟩ := hx
  have hr : (1 : ℝ) ≤ r := by exact_mod_cast h1
  rw [Ideal.rsqrt_coe, if_neg (by linarith), if_neg (by linarith)]
  exact ⟨_, rfl⟩

/-- The inclusion of the reals in the extended reals carries a finite sum to the sum of the
    images. -/
private theorem coe_sum {ι : Type*} (S : Finset ι) (f : ι → ℝ) :
    ((∑ i ∈ S, f i : ℝ) : EReal) = ∑ i ∈ S, (f i : EReal) := by
  classical
  induction S using Finset.induction_on with
  | empty => simp
  | insert a s ha ih => rw [Finset.sum_insert ha, Finset.sum_insert ha, EReal.coe_add, ih]

/-- A real scale factor and real weights move across a finite double sum: the sum over the rows
    e of S of the weighted row sums, scaled by n, is the weighted sum of the scaled column sums.
    Distributivity fails at infinities, hence the hypotheses. -/
theorem linear_swap {ι κ : Type*} [Fintype κ] (S : Finset ι) (y : ι → κ → EReal) (w : κ → EReal)
    (n : EReal) (hy : ∀ e k, IsReal (y e k)) (hw : ∀ k, IsReal (w k)) (hn : IsReal n) :
    (0 + ∑ e ∈ S, ∑ k, y e k * w k) * n = ∑ k, ((0 + ∑ e ∈ S, y e k) * n) * w k := by
  choose y' hy' using hy
  choose w' hw' using hw
  obtain ⟨n', rfl⟩ := hn
  -- both sides are images of real numbers
  simp only [hy', hw', zero_add, ← EReal.coe_mul, ← coe_sum]
  -- the identity over the reals: exchange the two sums, then distribute
  congr 1
  rw [Finset.sum_comm, Finset.sum_mul]
  refine Finset.sum_congr rfl fun k _ => ?_
  rw [← Finset.sum_mul]
  ring

end Cert.Reals
-- ==== Proof.SpecApply.lean ====
/-
  The graph convolution's whole-array functions, read entry by entry, and their real-valuedness.

  Each function of the specification is a composition of elementwise operations, broadcasts, a row gather, an
  accumulating row scatter and a matrix product. Read at one entry: a broadcast reads one entry of its operand, the
  gather reads the row its (wrapped, clamped) index names, the scatter adds to a zero the rows whose index is the
  entry's row, and the matrix product is the sum over the contracted axis. A degree is a zero plus a finite sum of
  ones, so it is a real number; its norm is either the reciprocal square root of a real that is at least one, or one;
  and sums, products and maxima of real numbers are real.
-/
import proofs.«130890_j80968723464705_2_alg».proof.Proof.Spec
import proofs.«130890_j80968723464705_2_alg».proof.Proof.Reals
import proofs.«130890_j80968723464705_2_alg».proof.Proof.LibPlainDot
import Idealize.ShloMosaic.Lib.Pipeline.Value
import Idealize.ShloMosaic.Lib.ValueLayout
import Idealize.ShloMosaic.PureOps.Ideal.Laws

noncomputable section

namespace Cert.Spec

open Cert.ReferenceIdeal Cert.ReferenceIdeal.Gen Idealize.ShloMosaic Idealize.ShloMosaic.ValueIdx Cert.Reals

open scoped BigOperators

/-! ## Broadcasts read at an entry -/

/-- A vector of length `N` made a column `[N, 1]` and spread over `C` columns reads, at `(v, k)`, its entry `v`. -/
private theorem spreadCol_apply {α : Type} {N C : Nat} (hN : N ≠ 1)
    (h0 : (⟨1, ![N]⟩ : Shape).BroadcastsInDim ⟨2, ![N, 1]⟩ (![0] : Fin 1 → Fin 2))
    (h1 : (⟨2, ![N, 1]⟩ : Shape).BroadcastsInDim ⟨2, ![N, C]⟩ (![0, 1] : Fin 2 → Fin 2))
    (n : (⟨1, ![N]⟩ : Shape).Idx → α) (v : Fin N) (k : Fin C) :
    broadcastInDim ⟨2, ![N, C]⟩ ![0, 1] h1 (broadcastInDim ⟨2, ![N, 1]⟩ ![0] h0 n) (ix2 v k) = n (ix1 v) := by
  have e1 := broadcastInDim_apply (![0, 1] : Fin 2 → Fin 2) h1 (broadcastInDim ⟨2, ![N, 1]⟩ ![0] h0 n) (ix2 v k)
    (ix2 v (0 : Fin 1)) (fun a => by
      match a with
      | ⟨0, _⟩ => show v.val = if N = 1 then 0 else v.val; rw [if_neg hN]
      | ⟨1, _⟩ => rfl)
  have e0 := broadcastInDim_apply (![0] : Fin 1 → Fin 2) h0 n (ix2 v (0 : Fin 1)) (ix1 v) (fun a => by
      match a with
      | ⟨0, _⟩ => show v.val = if N = 1 then 0 else v.val; rw [if_neg hN])
  exact e1.trans e0

/-- A vector of length `E` made a column `[E, 1]` reads, at `(e, 0)`, its entry `e`. -/
private theorem column_apply {α : Type} {E : Nat} (hE : E ≠ 1)
    (h0 : (⟨1, ![E]⟩ : Shape).BroadcastsInDim ⟨2, ![E, 1]⟩ (![0] : Fin 1 → Fin 2))
    (z : (⟨1, ![E]⟩ : Shape).Idx → α) (e : Fin E) :
    broadcastInDim ⟨2, ![E, 1]⟩ ![0] h0 z (ix2 e (0 : Fin 1)) = z (ix1 e) :=
  broadcastInDim_apply (![0] : Fin 1 → Fin 2) h0 z (ix2 e (0 : Fin 1)) (ix1 e) (fun a => by
    match a with
    | ⟨0, _⟩ => show e.val = if E = 1 then 0 else e.val; rw [if_neg hE])

/-- A vector of length `C` made a row `[1, C]` and spread over `N` rows reads, at `(v, k)`, its entry `k`. -/
private theorem spreadRow_apply {α : Type} {N C : Nat} (hC : C ≠ 1)
    (h0 : (⟨1, ![C]⟩ : Shape).BroadcastsInDim ⟨2, ![1, C]⟩ (![1] : Fin 1 → Fin 2))
    (h1 : (⟨2, ![1, C]⟩ : Shape).BroadcastsInDim ⟨2, ![N, C]⟩ (![0, 1] : Fin 2 → Fin 2))
    (b : (⟨1, ![C]⟩ : Shape).Idx → α) (v : Fin N) (k : Fin C) :
    broadcastInDim ⟨2, ![N, C]⟩ ![0, 1] h1 (broadcastInDim ⟨2, ![1, C]⟩ ![1] h0 b) (ix2 v k) = b (ix1 k) := by
  have e1 := broadcastInDim_apply (![0, 1] : Fin 2 → Fin 2) h1 (broadcastInDim ⟨2, ![1, C]⟩ ![1] h0 b) (ix2 v k)
    (ix2 (0 : Fin 1) k) (fun a => by
      match a with
      | ⟨0, _⟩ => rfl
      | ⟨1, _⟩ => show k.val = if C = 1 then 0 else k.val; rw [if_neg hC])
  have e0 := broadcastInDim_apply (![1] : Fin 1 → Fin 2) h0 b (ix2 (0 : Fin 1) k) (ix1 k) (fun a => by
      match a with
      | ⟨0, _⟩ => show k.val = if C = 1 then 0 else k.val; rw [if_neg hC])
  exact e1.trans e0

/-- The word `0x3F800000` is the real number one. -/
private theorem ofBits_one : Ideal.ofBits .f32 0x3F800000#32 = 1 := by
  simp [Ideal.ofBits, Ideal.ieee, -EReal.coe_mul]; norm_num

/-- A scalar spread over any shape reads the scalar. -/
private theorem splat_apply {α : Type} {T : Shape} (h : S_.BroadcastsInDim T (![] : Fin 0 → Fin T.rank))
    (x : S_.Idx → α) (j : T.Idx) : broadcastInDim T ![] h x j = x ix0 := by
  unfold broadcastInDim
  exact congrArg x (funext fun a => a.elim0)

/-- The zero word spread over any shape reads zero. -/
private theorem splat_zero {T : Shape} (h : S_.BroadcastsInDim T (![] : Fin 0 → Fin T.rank)) (j : T.Idx) :
    broadcastInDim T ![] h (constant (F := Ideal) S_ .f32 0x00000000#32) j = (0 : EReal) := by
  rw [splat_apply, constant_apply, Ideal.ofBits_zero_f32]

/-- The word of one spread over any shape reads one. -/
private theorem splat_one {T : Shape} (h : S_.BroadcastsInDim T (![] : Fin 0 → Fin T.rank)) (j : T.Idx) :
    broadcastInDim T ![] h (constant (F := Ideal) S_ .f32 0x3F800000#32) j = (1 : EReal) := by
  rw [splat_apply, constant_apply, ofBits_one]

/-- The host's reciprocal square root at an entry is the ideal one of the entry. -/
private theorem hostRsqrt_apply {s : Shape} {φ : FTy} (x : FVec Ideal s φ) (i : s.Idx) :
    Host.rsqrt x i = Ideal.rsqrt (x i) := rfl

theorem col_apply (n : FVec Ideal S100000 .f32) (v : Fin 100000) (k : Fin 64) : col n (ix2 v k) = n (ix1 v) :=
  spreadCol_apply (by omega) _ _ n v k

/-! ## Degrees and their norms are real numbers -/

/-- An accumulating scatter of real updates into a real operand is real: each entry is the operand's entry plus a
    finite sum of updates. -/
private theorem hostScatterAdd_isReal {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) := by
  unfold Ideal.hostScatterAdd
  exact (hx i).add (isReal_sum _ _ fun j _ => hu j)

/-- A zero plus a finite sum of ones. -/
theorem deg_isReal (idx : IVec S1600000 32) (i : S100000.Idx) : IsReal (deg idx i) := by
  unfold deg
  rw [Host.scatterAdd, Ideal.hostScatterAdd_def]
  refine hostScatterAdd_isReal _ _ _ _ (fun i => ?_) (fun j => ?_) i
  · rw [splat_zero]
    exact isReal_zero
  · rw [splat_one]
    exact isReal_one

/-- Either the reciprocal square root of a real number that is at least one, or one. -/
theorem norm_isReal (idx : IVec S1600000 32) (i : S100000.Idx) : IsReal (norm idx i) := by
  unfold norm
  rw [select_apply]
  unfold Scalar.select
  split
  · rw [hostRsqrt_apply, maximumf_apply, splat_one]
    exact isReal_rsqrt_of_one_le ((deg_isReal idx i).max isReal_one) (le_max_right _ _)
  · rw [splat_apply, id_eq, constant_apply, ofBits_one]
    exact isReal_one

/-! ## The aggregate read at an entry -/

/-- The program's row scatter and row gather records are the general ones at these sizes. -/
private theorem scatterDims_eq : scatter_S100000x64_S1600000x1_S1600000x64_1_0_0_1
    = RowOps.rowScatterDims 100000 1600000 64 Facts₀.scatter_S100000x64_S1600000x1_S1600000x64_1_0_0_1_wf := rfl
private theorem gatherDims_eq : gather_S100000x64_S1600000x1_S1600000x64_1_0_n_n_0_1_164
    = RowOps.rowGatherDims 100000 1600000 64 Facts₀.gather_S100000x64_S1600000x1_S1600000x64_1_0_n_n_0_1_164_wf := rfl

theorem agg_apply (y : FVec Ideal S100000x64 .f32) (src dst : IVec S1600000 32) (v : Fin 100000) (k : Fin 64) :
    agg y src dst (ix2 v k) = 0 + ∑ e ∈ rowsTo dst v, y (ix2 (rowOf src e) k) := by
  have hcol : ∀ (z : IVec S1600000 32) (e : Fin 1600000),
      broadcastInDim S1600000x1 ![0] bcast_S1600000_S1600000x1_0 z (ix2 e (0 : Fin 1)) = z (ix1 e) :=
    fun z e => column_apply (by omega) _ z e
  unfold agg
  rw [Host.scatterAdd, Ideal.hostScatterAdd_def, scatterDims_eq, gatherDims_eq, RowOps.rowScatterAdd_apply, splat_zero]
  unfold rowsTo
  refine congrArg (fun s : EReal => 0 + s)
    (Finset.sum_congr (Finset.filter_congr fun e _ => by rw [hcol]) fun e _ => ?_)
  rw [RowOps.rowGather_apply (by omega : 0 < 100000), hcol]
  rfl

/-! ## The layers read at an entry -/

theorem layer1_apply (x : FVec Ideal S100000x64 .f32) (src dst : IVec S1600000 32) (v : Fin 100000) (j : Fin 64) :
    layer1 x src dst (ix2 v j) = agg (mulf x (col (norm src))) src dst (ix2 v j) * norm dst (ix1 v) := by
  unfold layer1
  rw [mulf_apply, col_apply]

/-- Both matrix products contract the left operand's columns with the right operand's rows. -/
private theorem contracts64 :
    @Cert.Linear.Contracts 100000 64 64 dot_S100000x64_S64x64_S100000x64_1_0_0_1_n_n :=
  Cert.Linear.contracts_plain 100000 64 64
private theorem contracts16 :
    @Cert.Linear.Contracts 100000 64 16 dot_S100000x64_S64x16_S100000x16_1_0_0_1_n_n :=
  Cert.Linear.contracts_plain 100000 64 16

/-- The plain product read at `(p, q)`. -/
private theorem matProd_ix2 {R K N : Nat} (X : (Cert.Linear.Mat R K).Idx → EReal) (W : (Cert.Linear.Mat K N).Idx → EReal)
    (p : Fin R) (q : Fin N) :
    Cert.Linear.matProd X W (ix2 p q) = ∑ k : Fin K, X (ix2 p k) * W (ix2 k q) := rfl

theorem hidden_apply (x : FVec Ideal S100000x64 .f32) (src dst : IVec S1600000 32) (w1 : FVec Ideal S64x64 .f32)
    (b1 : FVec Ideal S64 .f32) (v : Fin 100000) (k : Fin 64) :
    hidden x src dst w1 b1 (ix2 v k) = hiddenPt x src dst w1 b1 v k := by
  have hb : broadcastInDim S100000x64 ![0, 1] bcast_S1x64_S100000x64_0_1
      (broadcastInDim S1x64 ![1] bcast_S64_S1x64_1 b1) (ix2 v k) = b1 (ix1 k) :=
    spreadRow_apply (by omega) _ _ b1 v k
  unfold hidden hiddenPt
  rw [Host.dotGeneral, Cert.Linear.dotGeneral_eq contracts64, mulf_apply, maximumf_apply, addf_apply, col_apply, hb,
    splat_zero, matProd_ix2]

theorem refOut_apply (x : FVec Ideal S100000x64 .f32) (src dst : IVec S1600000 32) (w1 : FVec Ideal S64x64 .f32)
    (b1 : FVec Ideal S64 .f32) (w2 : FVec Ideal S64x16 .f32) (b2 : FVec Ideal S16 .f32) (v : Fin 100000) (c : Fin 16) :
    refOut x src dst w1 b1 w2 b2 (ix2 v c)
      = (∑ k : Fin 64, ((0 + ∑ e ∈ rowsTo dst v, hiddenPt x src dst w1 b1 (rowOf src e) k) * norm dst (ix1 v))
          * w2 (ix2 k c)) + b2 (ix1 c) := by
  have hb : broadcastInDim S100000x16 ![0, 1] bcast_S1x16_S100000x16_0_1
      (broadcastInDim S1x16 ![1] bcast_S16_S1x16_1 b2) (ix2 v c) = b2 (ix1 c) :=
    spreadRow_apply (by omega) _ _ b2 v c
  unfold refOut
  rw [Host.dotGeneral, Cert.Linear.dotGeneral_eq contracts16, addf_apply, hb, matProd_ix2]
  refine congrArg (fun s : EReal => s + b2 (ix1 c)) (Finset.sum_congr rfl fun k _ => ?_)
  rw [mulf_apply, col_apply, agg_apply]
  exact congrArg (fun s : EReal => (0 + s) * norm dst (ix1 v) * w2 (ix2 k c))
    (Finset.sum_congr rfl fun e _ => hidden_apply x src dst w1 b1 (rowOf src e) k)

/-! ## The layers are real-valued on real inputs -/

theorem layer1_isReal (x : FVec Ideal S100000x64 .f32) (src dst : IVec S1600000 32) (hx : ∀ i, IsReal (x i))
    (v : Fin 100000) (j : Fin 64) : IsReal (layer1 x src dst (ix2 v j)) := by
  rw [layer1_apply, agg_apply]
  refine (isReal_zero.add (isReal_sum _ _ fun e _ => ?_)).mul (norm_isReal dst _)
  rw [mulf_apply, col_apply]
  exact (hx _).mul (norm_isReal src _)

theorem hiddenPt_isReal (x : FVec Ideal S100000x64 .f32) (src dst : IVec S1600000 32) (w1 : FVec Ideal S64x64 .f32)
    (b1 : FVec Ideal S64 .f32) (hx : ∀ i, IsReal (x i)) (hw1 : ∀ i, IsReal (w1 i)) (hb1 : ∀ i, IsReal (b1 i))
    (v : Fin 100000) (k : Fin 64) : IsReal (hiddenPt x src dst w1 b1 v k) := by
  unfold hiddenPt
  exact ((((isReal_sum _ _ fun j _ => (layer1_isReal x src dst hx v j).mul (hw1 _)).add (hb1 _)).max isReal_zero)).mul
    (norm_isReal src _)

end Cert.Spec

end
-- ==== Proof.Bridge.lean ====
/-
  The two programs compute one function of finite arguments.

  Entry `(v, c)` of the kernel's result is
      (0 + ∑ over the edges e into v, ∑ k, H (src e, k) · W₂ (k, c)) · norm dst v + b₂ c,
  the second layer's projection taken BEFORE the aggregation; entry `(v, c)` of the reference's is
      (∑ k, ((0 + ∑ over the edges e into v, H (src e, k)) · norm dst v) · W₂ (k, c)) + b₂ c,
  with `H` the same hidden state on both sides. Moving the factor `norm dst v` and the weights `W₂ (k, c)` across the
  finite sums is distributivity, which holds on the extended reals when every term is a real number: the hidden state is
  real because the arguments are (the precondition), and the degree norms are real because a degree is a finite count.
-/
import proofs.«130890_j80968723464705_2_alg».proof.Proof.KValue
import proofs.«130890_j80968723464705_2_alg».proof.Proof.SpecApply
import proofs.«130890_j80968723464705_2_alg».proof.Proof.Reals

set_option maxRecDepth 16384

noncomputable section

open scoped BigOperators

namespace Cert.Bridge

open Cert.KernelIdeal Cert.KernelIdeal.Gen Cert.KernelIdeal.HostReads Cert.KernelIdeal.KValue
open Idealize.ShloMosaic Idealize.ShloMosaic.ValueIdx Cert.Reals

/-- A vector re-laid as a column reads, at row `v`, the vector's entry `v`. -/
theorem asCol_apply (n : FVec Ideal S100000 .f32) (v : Fin 100000) : asCol n (ix2 v (0 : Fin 1)) = n (ix1 v) :=
  shapeCast_apply n _ _ _ (by
    rw [Shape.rowMajor_val_one, Shape.rowMajor_val_two]
    show v.val = v.val * 1 + 0
    omega)

/-- An index vector as a column reads, at row `e`, the vector's entry `e`. -/
theorem idxCol_apply (idx : IVec S1600000 32) (e : Fin 1600000) :
    broadcastInDim S1600000x1 ![0] bcast_S1600000_S1600000x1_0 idx (ix2 e (0 : Fin 1)) = idx (ix1 e) :=
  broadcastInDim_apply _ _ idx _ _ (fun a => by
    match a with
    | ⟨0, _⟩ => rfl)

/-- The 16-column aggregate is the library's accumulating row scatter of the library's row gather. -/
theorem agg16_def (y : FVec Ideal S100000x16 .f32) (src dst : IVec S1600000 32) :
    agg16 y src dst
      = Ideal.hostScatterAdd (RowOps.rowScatterDims 100000 1600000 16 Facts₀.scatter_S100000x16_S1600000x1_S1600000x16_1_0_0_1_wf)
          (broadcastInDim S100000x16 ![] bcast_S_S100000x16 (constant (F := Ideal) S_ .f32 0x00000000#32))
          (broadcastInDim S1600000x1 ![0] bcast_S1600000_S1600000x1_0 dst)
          (Host.gather (RowOps.rowGatherDims 100000 1600000 16 Facts₀.gather_S100000x16_S1600000x1_S1600000x16_1_0_n_n_0_1_116_wf) y
            (broadcastInDim S1600000x1 ![0] bcast_S1600000_S1600000x1_0 (Cert.Spec.wrap src))) := rfl

/-- THE 16-COLUMN AGGREGATE at `(v, c)`: zero plus the sum over the edges into `v` of the gathered rows' entries. -/
theorem agg16_apply (y : FVec Ideal S100000x16 .f32) (src dst : IVec S1600000 32) (v : Fin 100000) (c : Fin 16) :
    agg16 y src dst (ix2 v c) = 0 + ∑ e ∈ Cert.Spec.rowsTo dst v, y (ix2 (Cert.Spec.rowOf src e) c) := by
  have h0 : broadcastInDim S100000x16 ![] bcast_S_S100000x16 (constant (F := Ideal) S_ .f32 0x00000000#32) (ix2 v c) = 0 := by
    rw [broadcastInDim_apply _ _ _ _ ix0 (fun a => a.elim0), constant_apply, Ideal.ofBits_zero_f32]
  rw [agg16_def, RowOps.rowScatterAdd_apply, h0]
  unfold Cert.Spec.rowsTo
  refine congrArg (0 + ·) (Finset.sum_congr (Finset.filter_congr fun e _ => by rw [idxCol_apply]) fun e _ => ?_)
  rw [RowOps.rowGather_apply (by decide : 0 < 100000), idxCol_apply]
  rfl

/-- The first pallas_call's result at `(u, c)`: the hidden state's row `u` against column `c` of `W₂`. -/
theorem proj_apply (x : FVec Ideal S100000x64 .f32) (src dst : IVec S1600000 32) (w1 : FVec Ideal S64x64 .f32) (b1 : FVec Ideal S64 .f32)
    (w2 : FVec Ideal S64x16 .f32) (u : Fin 100000) (c : Fin 16) :
    proj x src dst w1 b1 w2 (ix2 u c) = ∑ k : Fin 64, Cert.Spec.hiddenPt x src dst w1 b1 u k * w2 (ix2 k c) := by
  unfold proj
  rw [Blocks.G0_ix2]
  simp only [Blocks.G0pt, Cert.Spec.hiddenPt, asCol_apply, shapeCast_a_1a_apply, Cert.Spec.layer1_apply]

/-- THE KERNEL'S RESULT at `(v, c)`. -/
theorem kerOut_apply (x : FVec Ideal S100000x64 .f32) (src dst : IVec S1600000 32) (w1 : FVec Ideal S64x64 .f32) (b1 : FVec Ideal S64 .f32)
    (w2 : FVec Ideal S64x16 .f32) (b2 : FVec Ideal S16 .f32) (v : Fin 100000) (c : Fin 16) :
    kerOut x src dst w1 b1 w2 b2 (ix2 v c)
      = (0 + ∑ e ∈ Cert.Spec.rowsTo dst v, ∑ k : Fin 64, Cert.Spec.hiddenPt x src dst w1 b1 (Cert.Spec.rowOf src e) k * w2 (ix2 k c))
          * Cert.Spec.norm dst (ix1 v) + b2 (ix1 c) := by
  unfold kerOut
  rw [Blocks.G1_ix2]
  unfold Blocks.G1pt
  rw [agg16_apply, asCol_apply, shapeCast_a_1a_apply]
  simp only [proj_apply]

/-- On real-valued arguments the kernel's result IS the reference's. -/
theorem out_eq (x : FVec Ideal S100000x64 .f32) (src dst : IVec S1600000 32) (w1 : FVec Ideal S64x64 .f32) (b1 : FVec Ideal S64 .f32)
    (w2 : FVec Ideal S64x16 .f32) (b2 : FVec Ideal S16 .f32)
    (hx : ∀ i, IsReal (x i)) (hw1 : ∀ i, IsReal (w1 i)) (hb1 : ∀ i, IsReal (b1 i)) (hw2 : ∀ i, IsReal (w2 i)) :
    kerOut x src dst w1 b1 w2 b2 = Cert.Spec.refOut x src dst w1 b1 w2 b2 := by
  funext i
  obtain ⟨v, c, rfl⟩ : ∃ (v : Fin 100000) (c : Fin 16), i = ix2 v c := ⟨i 0, i 1, eq_ix2 i⟩
  rw [kerOut_apply, Cert.Spec.refOut_apply]
  refine congrArg (· + b2 (ix1 c)) ?_
  exact linear_swap (Cert.Spec.rowsTo dst v) (fun e k => Cert.Spec.hiddenPt x src dst w1 b1 (Cert.Spec.rowOf src e) k)
    (fun k => w2 (ix2 k c)) (Cert.Spec.norm dst (ix1 v))
    (fun e k => Cert.Spec.hiddenPt_isReal x src dst w1 b1 hx hw1 hb1 _ k) (fun k => hw2 _) (Cert.Spec.norm_isReal dst _)

end Cert.Bridge

end
-- ==== Proof.PreReal.lean ====
import proofs.«130890_j80968723464705_2_alg».proof.Pre_finite_inputs
import proofs.«130890_j80968723464705_2_alg».proof.Proof.Gen.Pre_finite_inputs
import proofs.«130890_j80968723464705_2_alg».proof.Proof.Reals
import Idealize.ShloMosaic.Lib.ReduceAll
import Idealize.ShloMosaic.Lib.ValueIdx

/-!
The precondition read back: every float input is a real number.

The precondition is the conjunction, over the five float inputs, of "every entry has absolute
value below plus infinity". At the ideal reading a float is an extended real, and an extended
real whose absolute value is below the top element is a real number. Each conjunct is an
all-reduction by "and" of an elementwise comparison, so it is read one element at a time.
-/

namespace Cert.PreReal

open Idealize.ShloMosaic

/-- The shape of a scalar has exactly one index. -/
instance : Subsingleton Cert.Pre_finite_inputs.S_.Idx := ⟨fun a b => funext fun d => d.elim0⟩

/-- An extended real whose absolute value, max x (-x), is below the top element is a real number:
    it is neither of the two infinities. -/
theorem isReal_of_abs_lt_top (x : EReal) (h : max x (-x) < ⊤) : Cert.Reals.IsReal x := by
  have h1 : x ≠ ⊤ := by
    intro e; subst e; simp at h
  have h2 : x ≠ ⊥ := by
    intro e; subst e; simp at h
  lift x to ℝ using ⟨h1, h2⟩
  exact ⟨x, rfl⟩

/-- One element of one conjunct: where the comparison "absolute value below the pattern of plus
    infinity" answers 1, the entry is a real number. The pattern 0x7F800000 denotes the top
    element. -/
theorem elem_real {T : Shape}
    (hb : Cert.Pre_finite_inputs.S_.BroadcastsInDim T (![] : Fin 0 → Fin T.rank))
    (x : FVec Ideal T .f32) (i : T.Idx)
    (h : cmpf .olt (Host.absf x)
        (broadcastInDim T ![] hb (constant Cert.Pre_finite_inputs.S_ .f32 0x7F800000#32)) i = 1#1) :
    Cert.Reals.IsReal (x i) := by
  have htop : Ideal.ofBits .f32 0x7F800000#32 = ⊤ := by simp [Ideal.ofBits, Ideal.ieee]
  have h' : Ideal.cmp .olt (max (x i : EReal) (-(x i : EReal))) (Ideal.ofBits .f32 0x7F800000#32)
      = 1#1 := h
  rw [htop] at h'
  unfold Ideal.cmp at h'
  refine isReal_of_abs_lt_top (x i) ?_
  by_contra hn
  simp [hn] at h'

open Cert.Pre_finite_inputs in
theorem inputs_real [Cert.Pre_finite_inputs.Facts]
    (a0 : FVec Ideal S100000x64 .f32) (a1 a2 : IVec S1600000 32) (a3 : FVec Ideal S64x64 .f32)
    (a4 : FVec Ideal S64 .f32) (a5 : FVec Ideal S64x16 .f32) (a6 : FVec Ideal S16 .f32)
    (h : Cert.Pre_finite_inputs.fn (F := Ideal) a0 a1 a2 a3 a4 a5 a6 = fun _ => 1#1) :
    (∀ i, Cert.Reals.IsReal (a0 i)) ∧ (∀ i, Cert.Reals.IsReal (a3 i)) ∧ (∀ i, Cert.Reals.IsReal (a4 i))
      ∧ (∀ i, Cert.Reals.IsReal (a5 i)) ∧ (∀ i, Cert.Reals.IsReal (a6 i)) := by
  -- the one element of the scalar result
  have h0 := congrFun h ValueIdx.ix0
  dsimp only [Cert.Pre_finite_inputs.fn, Cert.Pre_finite_inputs.fn_part1] at h0
  -- the conjunction, split from the outside in
  obtain ⟨h0345, h6⟩ := IntOp.andi_eq_one.1 h0
  obtain ⟨h034, h5⟩ := IntOp.andi_eq_one.1 h0345
  obtain ⟨h03, h4⟩ := IntOp.andi_eq_one.1 h034
  obtain ⟨h0', h3⟩ := IntOp.andi_eq_one.1 h03
  -- each conjunct is an all-reduction of a comparison: read it at one element
  exact ⟨fun i => elem_real _ a0 i (Host.reduce_andi_all _ _ _ _ _ h0' i),
    fun i => elem_real _ a3 i (Host.reduce_andi_all _ _ _ _ _ h3 i),
    fun i => elem_real _ a4 i (Host.reduce_andi_all _ _ _ _ _ h4 i),
    fun i => elem_real _ a5 i (Host.reduce_andi_all _ _ _ _ _ h5 i),
    fun i => elem_real _ a6 i (Host.reduce_andi_all _ _ _ _ _ h6 i)⟩

end Cert.PreReal
-- ==== Proof.lean ====
/-
  The proof of `Cert.Claim`: a two-layer graph convolution (degree-normalised aggregation over an edge list, a dense
  layer, a rectifier, a second aggregation and dense layer) computed by two Pallas kernels among host gathers and
  scatter-adds, against its plain reference, at the ideal values.

  The kernel projects the hidden state to the 16 output columns BEFORE the second aggregation and applies the
  destination norm and bias after it; the reference aggregates the 64 hidden columns, scales, then projects.
  The two agree because a finite sum commutes with a real scale factor and with real weights (`Cert.Reals.linear_swap`):
  every quantity is a real number under the precondition — the arguments are finite, a degree is a finite count, and
  a gather reads entries of its operand while a scatter-add only adds them up.

  The three frames: the two kernel programs by their generated frame certificates; the reference by its run.
  The idealization rewrote nothing, so `preserves` is trivial.
-/
import proofs.«130890_j80968723464705_2_alg».proof.Defs
import proofs.«130890_j80968723464705_2_alg».proof.Proof.Gen.Kernel
import proofs.«130890_j80968723464705_2_alg».proof.Proof.Gen.Kernel.Frame
import proofs.«130890_j80968723464705_2_alg».proof.Proof.Gen.KernelIdeal
import proofs.«130890_j80968723464705_2_alg».proof.Proof.Gen.KernelIdeal.Frame
import proofs.«130890_j80968723464705_2_alg».proof.Proof.Gen.ReferenceIdeal
import proofs.«130890_j80968723464705_2_alg».proof.Proof.Gen.Pre_finite_inputs
import proofs.«130890_j80968723464705_2_alg».proof.Proof.RefRunPatched
import proofs.«130890_j80968723464705_2_alg».proof.Proof.RefValue
import proofs.«130890_j80968723464705_2_alg».proof.Proof.KValue
import proofs.«130890_j80968723464705_2_alg».proof.Proof.Bridge
import proofs.«130890_j80968723464705_2_alg».proof.Proof.PreReal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with the result at `kerOut` of the kernel's arguments: the kernel by its run, the
    reference because its composed term is `refOut` of arguments that agree, and `refOut = kerOut` on real arguments. -/
theorem algebraic : Cert.algebraic_KernelIdeal_ReferenceIdeal := by
  intro m ρ m' ρ' hpre hagree
  refine ⟨fun c => Cert.KernelIdeal.KValue.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.RefValue.res_eq, (hagree c).1, (hagree c).2.1, (hagree c).2.2.1, (hagree c).2.2.2.1, (hagree c).2.2.2.2.1,
    (hagree c).2.2.2.2.2.1, (hagree c).2.2.2.2.2.2]
  obtain ⟨h0, h3, h4, h5, -⟩ := Cert.PreReal.inputs_real _ _ _ _ _ _ _ (hpre c)
  exact (Cert.Bridge.out_eq _ _ _ _ _ _ _ h0 h3 h4 h5).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
